-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_arg13 : FVec F S64x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S64x128 .f32) (main_arg12 : FVec F S64 .f32) (main_arg13 : FVec F S64x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S64x128 .f32) (main_arg12 : FVec F S64 .f32) (main_arg13 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 119
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S64x128, .f32⟩
  | .hbm, ⟨12, _⟩ => ⟨S64, .f32⟩
  | .hbm, ⟨13, _⟩ => ⟨S64x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S64x128, .f32⟩
  | .hbm, ⟨51, _⟩ => ⟨S64x128, .bf16⟩
  | .hbm, ⟨52, _⟩ => ⟨S64x128, .f32⟩
  | .hbm, ⟨53, _⟩ => ⟨S64x128, .bf16⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S128x128, .bf16⟩
  | .hbm, ⟨73, _⟩ => ⟨S128x128, .f32⟩
  | .hbm, ⟨74, _⟩ => ⟨S128x128, .bf16⟩
  | .hbm, ⟨75, _⟩ => ⟨S1x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S128x128, .f32⟩
  | .hbm, ⟨93, _⟩ => ⟨S128x128, .bf16⟩
  | .hbm, ⟨94, _⟩ => ⟨S128x128, .f32⟩
  | .hbm, ⟨95, _⟩ => ⟨S128x128, .bf16⟩
  | .hbm, ⟨96, _⟩ => ⟨S1x128, .f32⟩
  | .hbm, ⟨97, _⟩ => ⟨S100000x128, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S128x64, .f32⟩
  | .hbm, ⟨114, _⟩ => ⟨S128x64, .bf16⟩
  | .hbm, ⟨115, _⟩ => ⟨S128x64, .f32⟩
  | .hbm, ⟨116, _⟩ => ⟨S128x64, .bf16⟩
  | .hbm, ⟨117, _⟩ => ⟨S1x64, .f32⟩
  | .hbm, ⟨118, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x64, .bf16⟩
  | .local _ .vmem, ⟨32, _⟩ => ⟨S128x64, .bf16⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bitsLt_bf16_f32 : FTy.bits .bf16 < FTy.bits .f32
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .bf16 = 32 ∨ (Rect.block (s := S128x64) S128x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .bf16 = 32 ∨ (Rect.block (s := S128x64) S128x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S128, .f32⟩
  | 4 => ⟨S128x64, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S64x128, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000x1, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x64, .f32⟩
  | 49 => ⟨S100000x64, .f32⟩
  | 50 => ⟨S64x128, .f32⟩
  | 51 => ⟨S100000x128, .f32⟩
  | 52 => ⟨S1x128, .f32⟩
  | 53 => ⟨S100000x128, .f32⟩
  | 54 => ⟨S100000x128, .f32⟩
  | 55 => ⟨S64x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S128x128, .f32⟩
  | 77 => ⟨S100000x128, .f32⟩
  | 78 => ⟨S1x128, .f32⟩
  | 79 => ⟨S100000x128, .f32⟩
  | 80 => ⟨S100000x128, .f32⟩
  | 81 => ⟨S128x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x128, .f32⟩
  | 101 => ⟨S100000x128, .f32⟩
  | 102 => ⟨S128x128, .f32⟩
  | 103 => ⟨S100000x128, .f32⟩
  | 104 => ⟨S1x128, .f32⟩
  | 105 => ⟨S100000x128, .f32⟩
  | 106 => ⟨S100000x128, .f32⟩
  | 107 => ⟨S128x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x128, .f32⟩
  | 127 => ⟨S100000x128, .f32⟩
  | _ => ⟨S100000x64, .f32⟩

abbrev hbmTy0_1 (i : Nat) : BufTy := match i % 128 with
  | 0 => ⟨S128x64, .f32⟩
  | 1 => ⟨S100000x64, .f32⟩
  | 2 => ⟨S1x64, .f32⟩
  | 3 => ⟨S100000x64, .f32⟩
  | 4 => ⟨S100000x64, .f32⟩
  | 5 => ⟨S128x64, .f32⟩
  | 6 => ⟨S100000x64, .f32⟩
  | 7 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call2_cst : Ref sig .tc := ⟨.hbm, 84, rfl⟩
abbrev main_call2_v0 : Ref sig .tc := ⟨.hbm, 85, rfl⟩
abbrev main_v55 : Ref sig .tc := ⟨.hbm, 86, rfl⟩
abbrev main_c_9 : Ref sig .tc := ⟨.hbm, 87, rfl⟩
abbrev main_v56 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call3_cst : Ref sig .tc := ⟨.hbm, 110, rfl⟩
abbrev main_call3_v0 : Ref sig .tc := ⟨.hbm, 111, rfl⟩
abbrev main_v76 : Ref sig .tc := ⟨.hbm, 112, rfl⟩
abbrev main_c_12 : Ref sig .tc := ⟨.hbm, 113, rfl⟩
abbrev main_v77 : Ref sig .tc := ⟨.hbm, 114, rfl⟩
abbrev main_v78 : Ref sig .tc := ⟨.hbm, 115, rfl⟩
abbrev main_c_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_14 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibLinLayer.lean ====
/-
  One linear layer of a graph convolution (agg · W_rel + bias row + x · W_root, optionally rectified), entry by entry, on
  the extended reals, for any extents; a block body's two `tpu.matmul`s into zero accumulators (`body_lin`,
  `body_linRelu`) and the host's two `dot_general`s (`host_lin`, `host_relu`) are both that layer, rows of the layer are
  the layer of the rows (`lin_congr`, `linRelu_congr`), and a `[C] → [1, C]` reshape equals the broadcast along axis 1
  (`row_two_ways`). Uses the plain matrix product of `LibPlainDot.lean`.

  For node features `x : [M, K]`, their neighbourhood sums `agg : [M, K]`, two weight matrices `wrel, wroot : [K, C]` and a
  bias row `b : [1, C]`, the layer's entry `(p, q)` is
      (∑ k, agg[p,k] · wrel[k,q]) + b[0,q] + (∑ k, x[p,k] · wroot[k,q]),
  and the rectified layer is its maximum with 0. Two computations produce it: a block of rows by two `tpu.matmul`s into
  zero accumulators (the operands passed through a narrower float format, which is the identity on exact values), and the
  host's two `dot_general`s. Rows of the layer depend only on the same rows of `agg` and `x`, so a block of rows of the
  layer is the layer of the blocks of rows (`lin_congr`).
-/
import Idealize.ShloMosaic.Lib.ValueIdx
import Idealize.ShloMosaic.Lib.Pipeline.Value
import Idealize.ShloMosaic.PureOps.Ideal.Laws
import proofs.«181820_j11081015623738_1_alg».proof.Proof.LibPlainDot

noncomputable section

namespace Cert.Lib.LinLayer

open Idealize.ShloMosaic Idealize.ShloMosaic.ValueIdx Cert.Lib.PlainDot

/-- An `a × b` array of extended reals. -/
abbrev Arr (a b : ℕ) : Type := (⟨2, ![a, b]⟩ : Shape).Idx → EReal

/-- The layer: `agg · wrel + b + x · wroot`, entry by entry. -/
def lin {M K C : ℕ} (agg x : Arr M K) (wrel wroot : Arr K C) (b : Arr 1 C) : Arr M C :=
  fun j => rowsByCols agg wrel j + b (ix2 (0 : Fin 1) (j 1)) + rowsByCols x wroot j

/-- The rectified layer: the layer's entries clipped below at zero. -/
def linRelu {M K C : ℕ} (agg x : Arr M K) (wrel wroot : Arr K C) (b : Arr 1 C) : Arr M C :=
  fun j => max (lin agg x wrel wroot b j) 0

/-- Entry `j'` of the layer of `(a, x', …)` is entry `j` of the layer of `(A, X, …)` when row `j' 0` of `a`, `x'` is row
    `j 0` of `A`, `X`, column `j' 1` of the weights is column `j 1`, and the bias agrees at those columns. -/
theorem lin_congr {M M' K C C' : ℕ} (A X : Arr M K) (Wr Wo : Arr K C) (B : Arr 1 C)
    (a x' : Arr M' K) (wr wo : Arr K C') (b : Arr 1 C') (j' : (⟨2, ![M', C']⟩ : Shape).Idx) (j : (⟨2, ![M, C]⟩ : Shape).Idx)
    (ha : ∀ k : Fin K, a (ix2 (j' 0) k) = A (ix2 (j 0) k)) (hx : ∀ k : Fin K, x' (ix2 (j' 0) k) = X (ix2 (j 0) k))
    (hwr : ∀ k : Fin K, wr (ix2 k (j' 1)) = Wr (ix2 k (j 1))) (hwo : ∀ k : Fin K, wo (ix2 k (j' 1)) = Wo (ix2 k (j 1)))
    (hb : b (ix2 (0 : Fin 1) (j' 1)) = B (ix2 (0 : Fin 1) (j 1))) :
    lin a x' wr wo b j' = lin A X Wr Wo B j := by
  unfold lin
  rw [rowsByCols_congr A Wr a wr j' j ha hwr, rowsByCols_congr X Wo x' wo j' j hx hwo, hb]

theorem linRelu_congr {M M' K C C' : ℕ} (A X : Arr M K) (Wr Wo : Arr K C) (B : Arr 1 C)
    (a x' : Arr M' K) (wr wo : Arr K C') (b : Arr 1 C') (j' : (⟨2, ![M', C']⟩ : Shape).Idx) (j : (⟨2, ![M, C]⟩ : Shape).Idx)
    (ha : ∀ k : Fin K, a (ix2 (j' 0) k) = A (ix2 (j 0) k)) (hx : ∀ k : Fin K, x' (ix2 (j' 0) k) = X (ix2 (j 0) k))
    (hwr : ∀ k : Fin K, wr (ix2 k (j' 1)) = Wr (ix2 k (j 1))) (hwo : ∀ k : Fin K, wo (ix2 k (j' 1)) = Wo (ix2 k (j 1)))
    (hb : b (ix2 (0 : Fin 1) (j' 1)) = B (ix2 (0 : Fin 1) (j 1))) :
    linRelu a x' wr wo b j' = linRelu A X Wr Wo B j := by
  unfold linRelu
  rw [lin_congr A X Wr Wo B a x' wr wo b j' j ha hx hwr hwo hb]

/-- The bias row spread over the rows of a block reads, at `(p, q)`, its entry `(0, q)`. -/
theorem spread_row {M C : ℕ} (b : Arr 1 C) (hb : (⟨2, ![1, C]⟩ : Shape).Broadcasts ⟨2, ![M, C]⟩) (j : (⟨2, ![M, C]⟩ : Shape).Idx) :
    broadcastTo ⟨2, ![M, C]⟩ b hb j = b (ix2 (0 : Fin 1) (j 1)) :=
  broadcastTo_apply b hb j (ix2 (0 : Fin 1) (j 1)) (fun a => by
    match a with
    | ⟨0, _⟩ => show 0 = if (1 : ℕ) = 1 then 0 else _; rw [if_pos rfl]
    | ⟨1, _⟩ =>
      show (j 1).val = if C = 1 then 0 else (j 1).val
      split
      · have hj : (j 1).val < C := (j 1).isLt; omega
      · rfl)

/-- The block body's arithmetic: two `tpu.matmul`s into zero accumulators of operands passed through a narrower format,
    the bias row spread over the rows between them, is the layer. -/
theorem body_lin {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .f32) (b : FVec Ideal ⟨2, ![1, C]⟩ .f32) :
    addf (addf (matmul d none (truncf .bf16 agg hlt) (truncf .bf16 wrel hlt) (constant (F := Ideal) ⟨2, ![M, C]⟩ .f32 0x00000000#32))
          (broadcastTo ⟨2, ![M, C]⟩ b hb))
        (matmul d none (truncf .bf16 x hlt) (truncf .bf16 wroot hlt) (constant (F := Ideal) ⟨2, ![M, C]⟩ .f32 0x00000000#32))
      = lin agg x wrel wroot b := by
  funext j
  rw [addf_apply, addf_apply]
  show FloatOps.matmul d none (truncf .bf16 agg hlt) (truncf .bf16 wrel hlt) (constant (F := Ideal) ⟨2, ![M, C]⟩ .f32 0x00000000#32) j
      + broadcastTo ⟨2, ![M, C]⟩ b hb j
      + FloatOps.matmul d none (truncf .bf16 x hlt) (truncf .bf16 wroot hlt) (constant (F := Ideal) ⟨2, ![M, C]⟩ .f32 0x00000000#32) j = _
  rw [matmul_zero_eq d hd none (truncf .bf16 agg hlt) (truncf .bf16 wrel hlt),
    matmul_zero_eq d hd none (truncf .bf16 x hlt) (truncf .bf16 wroot hlt), spread_row b hb j]
  rfl

/-- The same followed by a maximum with the zero word spread over the block: the rectified layer. -/
theorem body_linRelu {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .f32) (b : FVec Ideal ⟨2, ![1, C]⟩ .f32) :
    maximumf (addf (addf (matmul d none (truncf .bf16 agg hlt) (truncf .bf16 wrel hlt) (constant (F := Ideal) ⟨2, ![M, C]⟩ .f32 0x00000000#32))
          (broadcastTo ⟨2, ![M, C]⟩ b hb))
        (matmul d none (truncf .bf16 x hlt) (truncf .bf16 wroot hlt) (constant (F := Ideal) ⟨2, ![M, C]⟩ .f32 0x00000000#32)))
        (broadcast ⟨2, ![M, C]⟩ (Scalar.ofBits (F := Ideal) .f32 0x00000000#32))
      = linRelu agg x wrel wroot b := by
  rw [body_lin d hd hb hlt agg x wrel wroot b]
  funext j
  rw [maximumf_apply, broadcast_apply]
  show max _ (Ideal.ofBits .f32 0x00000000#32) = _
  rw [Ideal.ofBits_zero_f32]
  rfl

/-- The host's arithmetic: two `dot_general`s with the bias row spread over the rows between them, is the layer. -/
theorem host_lin {M K C : ℕ} (d : DotDims ⟨2, ![M, K]⟩ ⟨2, ![K, C]⟩ ⟨2, ![M, C]⟩) (hd : d = DotDims.plain M K C)
    (h : (⟨2, ![1, C]⟩ : Shape).BroadcastsInDim ⟨2, ![M, C]⟩ ![0, 1])
    (agg x : FVec Ideal ⟨2, ![M, K]⟩ .f32) (wrel wroot : FVec Ideal ⟨2, ![K, C]⟩ .f32) (b : FVec Ideal ⟨2, ![1, C]⟩ .f32) :
    addf (addf (Host.dotGeneral d none agg wrel) (broadcastInDim ⟨2, ![M, C]⟩ ![0, 1] h b)) (Host.dotGeneral d none x wroot)
      = lin agg x wrel wroot b := by
  funext j
  rw [addf_apply, addf_apply]
  show FloatOps.dotGeneral d none .single agg wrel j + broadcastInDim ⟨2, ![M, C]⟩ ![0, 1] h b j
      + FloatOps.dotGeneral d none .single x wroot j = _
  rw [dotGeneral_eq d hd none .single agg wrel, dotGeneral_eq d hd none .single x wroot,
    broadcastInDim_apply ![0, 1] h b j (ix2 (0 : Fin 1) (j 1)) (fun a => by
      match a with
      | ⟨0, _⟩ => show 0 = if (1 : ℕ) = 1 then 0 else _; rw [if_pos rfl]
      | ⟨1, _⟩ =>
        show (j 1).val = if C = 1 then 0 else (j 1).val
        split
        · have hj : (j 1).val < C := (j 1).isLt; omega
        · rfl)]
  rfl

/-- The host's rectifier: a maximum with the zero word spread over the array (a scalar broadcast) clips at zero. -/
theorem host_relu {M C : ℕ} (h : (⟨0, ![]⟩ : Shape).BroadcastsInDim ⟨2, ![M, C]⟩ ![]) (v : FVec Ideal ⟨2, ![M, C]⟩ .f32) :
    maximumf v (broadcastInDim ⟨2, ![M, C]⟩ ![] h (constant (F := Ideal) ⟨0, ![]⟩ .f32 0x00000000#32)) = fun j => max (v j) 0 := by
  funext j
  rw [maximumf_apply, broadcastInDim_apply ![] h _ j ix0 (fun a => a.elim0), constant_apply, Ideal.ofBits_zero_f32]

/-- A row vector made from a vector by a reshape `[C] → [1, C]` and by a `broadcast_in_dim` along axis 1 are one array. -/
theorem row_two_ways {C : ℕ} {α : Type} (b : (⟨1, ![C]⟩ : Shape).Idx → α) (hs : (⟨1, ![C]⟩ : Shape).ShapeCasts ⟨2, ![1, C]⟩)
    (hbc : (⟨1, ![C]⟩ : Shape).BroadcastsInDim ⟨2, ![1, C]⟩ ![1]) :
    shapeCast ⟨2, ![1, C]⟩ b hs = broadcastInDim ⟨2, ![1, C]⟩ ![1] hbc b := by
  funext i
  rw [shapeCast_apply b hs i (ix1 (i 1)) (by
        rw [Shape.rowMajor_val_one, Shape.rowMajor_val_two]
        have h0 : (i 0).val < 1 := (i 0).isLt
        show (i 1).val = (i 0).val * C + (i 1).val
        have : (i 0).val = 0 := by omega
        rw [this, Nat.zero_mul, Nat.zero_add]),
    broadcastInDim_apply ![1] hbc b i (ix1 (i 1)) (fun a => by
      match a with
      | ⟨0, _⟩ =>
        show (i 1).val = if C = 1 then 0 else (i 1).val
        split
        · have hi : (i 1).val < C := (i 1).isLt; omega
        · rfl)]

end Cert.Lib.LinLayer

end
-- ==== Proof.SageNet.lean ====
/-
  The network both programs compute, as one function of the arguments.

  Nodes carry feature rows `h : [N, K]`; an edge list gives, per edge, a source node `S[e]` and a destination node `D[e]`
  (`N = 100000`, `1600000` edges), and `I : [N, 1]` holds each node's inverse in-degree (zero for a node no edge points at).
  The neighbourhood mean of `h` is
      mean(h)[n, :] = I[n] · ∑ { h[S[e], :] : e with D[e] = n },
  computed on the host by a gather of the rows `h[S[e], :]` (a negative id counted from the end), a scatter-add of those
  rows into a zero array at the rows `D[e]`, and a product with `I` spread along the rows. It is used here only as a
  function of `(S, D, I, h)`: both programs apply the same host operations, so nothing about which rows an entry of
  the mean depends on is ever needed (`mean64`, `mean128` for `K = 64`, `128`).

  One layer maps `h` to `mean(h) · wl + b + h · wr` (`Cert.Lib.LinLayer.lin`), clipped below at zero in the first three
  layers (`linRelu`); `net` is the four layers in sequence over any two aggregators `A1 : [N, 64] → [N, 64]` and
  `A2 : [N, 128] → [N, 128]`, so that it can be stated before either program's aggregators are named.
-/
import proofs.«181820_j11081015623738_1_alg».proof.Proof.Gen.ReferenceIdeal
import proofs.«181820_j11081015623738_1_alg».proof.Proof.LibLinLayer

noncomputable section

namespace Cert.Sage

open Idealize.ShloMosaic Cert.ReferenceIdeal Cert.ReferenceIdeal.Gen Cert.Lib.LinLayer

/-- The edges' source ids as a column of start indices, a negative id `s` replaced by `s + 100000`. -/
def srcCol (S : (⟨S1600000, .i32⟩ : BufTy).Contents (Elt Ideal)) : (⟨S1600000x1, .i32⟩ : BufTy).Contents (Elt Ideal) :=
  broadcastInDim S1600000x1 ![0] bcast_S1600000_S1600000x1_0
    (select (cmpi .slt S (broadcastInDim S1600000 ![] bcast_S_S1600000 (constantI S_ 32 0#32)))
      (addi S (broadcastInDim S1600000 ![] bcast_S_S1600000 (constantI S_ 32 100000#32))) S)

/-- The neighbourhood mean of 64-wide rows: gather the source rows, add them up at the destination rows, scale row `n`
    by `I[n]`. -/
def mean64 (S D : (⟨S1600000, .i32⟩ : BufTy).Contents (Elt Ideal)) (I : (⟨S100000x1, .f32⟩ : BufTy).Contents (Elt Ideal))
    (h : (⟨S100000x64, .f32⟩ : BufTy).Contents (Elt Ideal)) : (⟨S100000x64, .f32⟩ : BufTy).Contents (Elt Ideal) :=
  mulf (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 D)
      (Host.gather gather_S100000x64_S1600000x1_S1600000x64_1_0_n_n_0_1_164 h (srcCol S)))
    (broadcastInDim S100000x64 ![0, 1] bcast_S100000x1_S100000x64_0_1 I)

/-- The neighbourhood mean of 128-wide rows. -/
def mean128 (S D : (⟨S1600000, .i32⟩ : BufTy).Contents (Elt Ideal)) (I : (⟨S100000x1, .f32⟩ : BufTy).Contents (Elt Ideal))
    (h : (⟨S100000x128, .f32⟩ : BufTy).Contents (Elt Ideal)) : (⟨S100000x128, .f32⟩ : BufTy).Contents (Elt Ideal) :=
  mulf (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 D)
      (Host.gather gather_S100000x128_S1600000x1_S1600000x128_1_0_n_n_0_1_1128 h (srcCol S)))
    (broadcastInDim S100000x128 ![0, 1] bcast_S100000x1_S100000x128_0_1 I)

/-- One rectified layer over an aggregator `A`: `h ↦ max(A(h) · wl + b + h · wr, 0)`. -/
def stepRelu {K C : ℕ} (A : Arr 100000 K → Arr 100000 K) (h : Arr 100000 K) (wl wr : Arr K C) (b : Arr 1 C) : Arr 100000 C :=
  linRelu (A h) h wl wr b

/-- One plain layer over an aggregator `A`: `h ↦ A(h) · wl + b + h · wr`. -/
def stepLin {K C : ℕ} (A : Arr 100000 K → Arr 100000 K) (h : Arr 100000 K) (wl wr : Arr K C) (b : Arr 1 C) : Arr 100000 C :=
  lin (A h) h wl wr b

/-- The four layers: three rectified ones, `64 → 128 → 128 → 128`, and a plain one, `128 → 64`; each weight matrix is
    given as it multiplies from the right (`[K, C]`), each bias as a row `[1, C]`. -/
def net (A1 : Arr 100000 64 → Arr 100000 64) (A2 : Arr 100000 128 → Arr 100000 128) (x : Arr 100000 64)
    (wl1 wr1 : Arr 64 128) (b1 : Arr 1 128) (wl2 wr2 : Arr 128 128) (b2 : Arr 1 128)
    (wl3 wr3 : Arr 128 128) (b3 : Arr 1 128) (wl4 wr4 : Arr 128 64) (b4 : Arr 1 64) : Arr 100000 64 :=
  stepLin A2 (stepRelu A2 (stepRelu A2 (stepRelu A1 x wl1 wr1 b1) wl2 wr2 b2) wl3 wr3 b3) wl4 wr4 b4

end Cert.Sage

end
-- ==== Proof.RefValue.lean ====
/-
  The reference program's result, stage by stage, is the network.

  Its run ends with the result buffer at the last stage's value (`val_main_v96`). Each layer of the reference is the same
  few host operations: the neighbourhood mean of the previous layer's output, two `dot_general`s against the transposed
  weight matrices with the bias row spread over the rows added between them, and (in the first three layers) a maximum
  with zero. So each layer's output stage is one step of `Cert.Sage.net` applied to the previous layer's output stage,
  with `S`, `D`, `I` the reference's own edge endpoints and inverse in-degree column; the four steps in sequence are the
  network.
-/
import proofs.«181820_j11081015623738_1_alg».proof.Proof.RefReadP
import proofs.«181820_j11081015623738_1_alg».proof.Proof.SageNet

set_option maxRecDepth 16384

noncomputable section

namespace Cert.ReferenceIdeal.Net

open Cert.ReferenceIdeal Cert.ReferenceIdeal.Gen Cert.ReferenceIdeal.ReadP
open Idealize.ShloMosaic Cert.Sage Cert.Lib.LinLayer

variable (x0 : (⟨S100000x64, .f32⟩ : BufTy).Contents (Elt Ideal))
  (x1 : (⟨S2x1600000, .i32⟩ : BufTy).Contents (Elt Ideal))
  (x2 : (⟨S128x64, .f32⟩ : BufTy).Contents (Elt Ideal))
  (x3 : (⟨S128, .f32⟩ : BufTy).Contents (Elt Ideal))
  (x4 : (⟨S128x64, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128x128, .f32⟩ : BufTy).Contents (Elt Ideal))
  (x9 : (⟨S128, .f32⟩ : BufTy).Contents (Elt Ideal))
  (x10 : (⟨S128x128, .f32⟩ : BufTy).Contents (Elt Ideal))
  (x11 : (⟨S64x128, .f32⟩ : BufTy).Contents (Elt Ideal))
  (x12 : (⟨S64, .f32⟩ : BufTy).Contents (Elt Ideal))
  (x13 : (⟨S64x128, .f32⟩ : BufTy).Contents (Elt Ideal))

/-- The first layer's output is one rectified step from the input features: the mean is the shared aggregator of it by
    unfolding, the two `dot_general`s and the bias row between them are the layer (`host_lin`), the maximum with the spread zero the clip (`host_relu`). -/
theorem layer1 : val_main_v34 (F := Ideal) x0 x1 x2 x3 x4 = stepRelu (mean64 (val_main_v1 (F := Ideal) x1) (val_main_v3 (F := Ideal) x1) (val_main_v13 (F := Ideal) x1)) (x0) (val_main_v26 (F := Ideal) x2) (val_main_v31 (F := Ideal) x4) (val_main_v28 (F := Ideal) x3) := by
  have hmean : val_main_v25 (F := Ideal) x0 x1 = mean64 (val_main_v1 (F := Ideal) x1) (val_main_v3 (F := Ideal) x1) (val_main_v13 (F := Ideal) x1) (x0) := rfl
  unfold val_main_v34 val_main_v33 val_main_v30 val_main_v27 val_main_v29 val_main_v32 val_main_call1_v0 val_main_call1_cst
  rw [host_lin dot_S100000x64_S64x128_S100000x128_1_0_0_1_n_n rfl bcast_S1x128_S100000x128_0_1 (val_main_v25 (F := Ideal) x0 x1) (x0) (val_main_v26 (F := Ideal) x2) (val_main_v31 (F := Ideal) x4) (val_main_v28 (F := Ideal) x3)]
  rw [host_relu bcast_S_S100000x128, hmean]
  rfl

/-- The second layer's output is one rectified step from the previous layer's output: the mean is the shared aggregator of it by
    unfolding, the two `dot_general`s and the bias row between them are the layer (`host_lin`), the maximum with the spread zero the clip (`host_relu`). -/
theorem layer2 : val_main_v55 (F := Ideal) x0 x1 x2 x3 x4 x5 x6 x7 = stepRelu (mean128 (val_main_v1 (F := Ideal) x1) (val_main_v3 (F := Ideal) x1) (val_main_v13 (F := Ideal) x1)) (val_main_v34 (F := Ideal) x0 x1 x2 x3 x4) (val_main_v47 (F := Ideal) x5) (val_main_v52 (F := Ideal) x7) (val_main_v49 (F := Ideal) x6) := by
  have hmean : val_main_v46 (F := Ideal) x0 x1 x2 x3 x4 = mean128 (val_main_v1 (F := Ideal) x1) (val_main_v3 (F := Ideal) x1) (val_main_v13 (F := Ideal) x1) (val_main_v34 (F := Ideal) x0 x1 x2 x3 x4) := rfl
  unfold val_main_v55 val_main_v54 val_main_v51 val_main_v48 val_main_v50 val_main_v53 val_main_call2_v0 val_main_call2_cst
  rw [host_lin dot_S100000x128_S128x128_S100000x128_1_0_0_1_n_n rfl bcast_S1x128_S100000x128_0_1 (val_main_v46 (F := Ideal) x0 x1 x2 x3 x4) (val_main_v34 (F := Ideal) x0 x1 x2 x3 x4) (val_main_v47 (F := Ideal) x5) (val_main_v52 (F := Ideal) x7) (val_main_v49 (F := Ideal) x6)]
  rw [host_relu bcast_S_S100000x128, hmean]
  rfl

/-- The third layer's output is one rectified step from the previous layer's output: the mean is the shared aggregator of it by
    unfolding, the two `dot_general`s and the bias row between them are the layer (`host_lin`), the maximum with the spread zero the clip (`host_relu`). -/
theorem layer3 : val_main_v76 (F := Ideal) x0 x1 x2 x3 x4 x5 x6 x7 x8 x9 x10 = stepRelu (mean128 (val_main_v1 (F := Ideal) x1) (val_main_v3 (F := Ideal) x1) (val_main_v13 (F := Ideal) x1)) (val_main_v55 (F := Ideal) x0 x1 x2 x3 x4 x5 x6 x7) (val_main_v68 (F := Ideal) x8) (val_main_v73 (F := Ideal) x10) (val_main_v70 (F := Ideal) x9) := by
  have hmean : val_main_v67 (F := Ideal) x0 x1 x2 x3 x4 x5 x6 x7 = mean128 (val_main_v1 (F := Ideal) x1) (val_main_v3 (F := Ideal) x1) (val_main_v13 (F := Ideal) x1) (val_main_v55 (F := Ideal) x0 x1 x2 x3 x4 x5 x6 x7) := rfl
  unfold val_main_v76 val_main_v75 val_main_v72 val_main_v69 val_main_v71 val_main_v74 val_main_call3_v0 val_main_call3_cst
  rw [host_lin dot_S100000x128_S128x128_S100000x128_1_0_0_1_n_n rfl bcast_S1x128_S100000x128_0_1 (val_main_v67 (F := Ideal) x0 x1 x2 x3 x4 x5 x6 x7) (val_main_v55 (F := Ideal) x0 x1 x2 x3 x4 x5 x6 x7) (val_main_v68 (F := Ideal) x8) (val_main_v73 (F := Ideal) x10) (val_main_v70 (F := Ideal) x9)]
  rw [host_relu bcast_S_S100000x128, hmean]
  rfl

/-- The fourth layer's output is one plain step from the previous layer's output: the mean is the shared aggregator of it by
    unfolding, the two `dot_general`s and the bias row between them are the layer (`host_lin`). -/
theorem layer4 : val_main_v96 (F := Ideal) x0 x1 x2 x3 x4 x5 x6 x7 x8 x9 x10 x11 x12 x13 = stepLin (mean128 (val_main_v1 (F := Ideal) x1) (val_main_v3 (F := Ideal) x1) (val_main_v13 (F := Ideal) x1)) (val_main_v76 (F := Ideal) x0 x1 x2 x3 x4 x5 x6 x7 x8 x9 x10) (val_main_v89 (F := Ideal) x11) (val_main_v94 (F := Ideal) x13) (val_main_v91 (F := Ideal) x12) := by
  have hmean : val_main_v88 (F := Ideal) x0 x1 x2 x3 x4 x5 x6 x7 x8 x9 x10 = mean128 (val_main_v1 (F := Ideal) x1) (val_main_v3 (F := Ideal) x1) (val_main_v13 (F := Ideal) x1) (val_main_v76 (F := Ideal) x0 x1 x2 x3 x4 x5 x6 x7 x8 x9 x10) := rfl
  unfold val_main_v96 val_main_v93 val_main_v90 val_main_v92 val_main_v95
  rw [host_lin dot_S100000x128_S128x64_S100000x64_1_0_0_1_n_n rfl bcast_S1x64_S100000x64_0_1 (val_main_v88 (F := Ideal) x0 x1 x2 x3 x4 x5 x6 x7 x8 x9 x10) (val_main_v76 (F := Ideal) x0 x1 x2 x3 x4 x5 x6 x7 x8 x9 x10) (val_main_v89 (F := Ideal) x11) (val_main_v94 (F := Ideal) x13) (val_main_v91 (F := Ideal) x12)]
  rw [hmean]
  rfl

/-- The result stage is the network of the arguments. -/
theorem result :
    val_main_v96 (F := Ideal) x0 x1 x2 x3 x4 x5 x6 x7 x8 x9 x10 x11 x12 x13
      = net (mean64 (val_main_v1 (F := Ideal) x1) (val_main_v3 (F := Ideal) x1) (val_main_v13 (F := Ideal) x1)) (mean128 (val_main_v1 (F := Ideal) x1) (val_main_v3 (F := Ideal) x1) (val_main_v13 (F := Ideal) x1)) x0
          (val_main_v26 (F := Ideal) x2) (val_main_v31 (F := Ideal) x4) (val_main_v28 (F := Ideal) x3)
          (val_main_v47 (F := Ideal) x5) (val_main_v52 (F := Ideal) x7) (val_main_v49 (F := Ideal) x6)
          (val_main_v68 (F := Ideal) x8) (val_main_v73 (F := Ideal) x10) (val_main_v70 (F := Ideal) x9)
          (val_main_v89 (F := Ideal) x11) (val_main_v94 (F := Ideal) x13) (val_main_v91 (F := Ideal) x12) := by
  rw [layer4, layer3, layer2, layer1]
  rfl

end Cert.ReferenceIdeal.Net

end
-- ==== Proof.KernelRun.lean ====
/-
  The kernel program's run with its result named.

  The program is ten segments: host operations, then for each of the four layers a stretch of host operations (the
  neighbourhood mean, the transposed weights, the bias row) followed by the layer's grid of twenty row blocks. Every
  weakly fair execution runs through them in order and ends with every buffer that outlives the run at the contents
  the last boundary of that chain gives it (`W10`): in particular the result buffer holds what the last layer's
  write-backs leave, and each argument what it held at launch.
-/
import proofs.«181820_j11081015623738_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Named

end
-- ==== Proof.KernelFold.lean ====
/-
  What the program's ten segments leave alone.

  The buffer contents at the segment boundaries form a chain: the launch memory, then three stretches of host operations
  (the edge endpoints and the in-degrees; the inverse in-degrees; the first layer's neighbourhood means, weights and bias
  row), the first layer's grid, and for each later layer one stretch of host operations and its grid. A stretch changes
  only the buffers its operations write, and a grid changes only its six arrays, of which only the output array
  differs afterwards. So a buffer written before the first grid and never again — the edge endpoints, the inverse
  in-degrees — and every argument is, at each later boundary, what it was when the first grid was entered.
-/
import proofs.«181820_j11081015623738_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]

/-! ## What each stretch of host operations writes -/

/-- The buffers the first stretch (endpoints, in-degrees) writes, in order. -/
abbrev written0 : List (Ref sig .tc) := [main_v0, main_v1, main_v2, main_v3, main_cst, main_v4, main_cst_0, main_v5, main_v6, main_v7, main_cst_1, main_v8, main_v9, main_cst_2, main_v10, main_v11, main_cst_3]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the first stretch (endpoints, in-degrees) does not write holds after it what it held before. -/
theorem keep0 (U : Valuation τ sig (Elt F)) (r : Ref sig .tc) (h : r ∉ written0) :
    StableHlo.after hostOps0 U (Proc.devRef .tc r) = U (Proc.devRef .tc r) :=
  StableHlo.after_of_writes_sub hostOps0 U writes0 h

/-- The buffers the second stretch (inverse in-degrees) writes, in order. -/
abbrev written0a : List (Ref sig .tc) := [main_call0_v0, main_call0_v1, main_v12]
theorem writes0a : (hostOps0_1 : List (HloOp τ sig (Elt F))).Forall fun op => op.writes ⊆ (written0a.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the second stretch (inverse in-degrees) does not write holds after it what it held before. -/
theorem keep0a (U : Valuation τ sig (Elt F)) (r : Ref sig .tc) (h : r ∉ written0a) :
    StableHlo.after hostOps0_1 U (Proc.devRef .tc r) = U (Proc.devRef .tc r) :=
  StableHlo.after_of_writes_sub hostOps0_1 U writes0a h

/-- The buffers the third stretch (the first layer's operands) writes, in order. -/
abbrev written0b : List (Ref sig .tc) := [main_v13, main_c, main_v14, main_v15, main_c_4, main_v16, main_v17, main_v18, main_v19, main_v20, main_cst_5, main_v21, main_v22, main_v23, main_v24, main_v25, main_v26, main_v27, main_v28, main_v29, main_v30]
theorem writes0b : (hostOps0_2 : List (HloOp τ sig (Elt F))).Forall fun op => op.writes ⊆ (written0b.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the third stretch (the first layer's operands) does not write holds after it what it held before. -/
theorem keep0b (U : Valuation τ sig (Elt F)) (r : Ref sig .tc) (h : r ∉ written0b) :
    StableHlo.after hostOps0_2 U (Proc.devRef .tc r) = U (Proc.devRef .tc r) :=
  StableHlo.after_of_writes_sub hostOps0_2 U writes0b h

/-- The buffers the second layer's stretch writes, in order. -/
abbrev written1 : List (Ref sig .tc) := [main_c_6, main_v32, main_v33, main_c_7, main_v34, main_v35, main_v36, main_v37, main_v38, main_cst_8, main_v39, main_v40, main_v41, main_v42, main_v43, main_v44, main_v45, main_v46, main_v47, main_v48]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the second layer's stretch does not write holds after it what it held before. -/
theorem keep1 (U : Valuation τ sig (Elt F)) (r : Ref sig .tc) (h : r ∉ written1) :
    StableHlo.after hostOps1 U (Proc.devRef .tc r) = U (Proc.devRef .tc r) :=
  StableHlo.after_of_writes_sub hostOps1 U writes1 h

/-- The buffers the third layer's stretch writes, in order. -/
abbrev written2 : List (Ref sig .tc) := [main_c_9, main_v50, main_v51, main_c_10, main_v52, main_v53, main_v54, main_v55, main_v56, main_cst_11, main_v57, main_v58, main_v59, main_v60, main_v61, main_v62, main_v63, main_v64, main_v65, main_v66]
theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the third layer's stretch does not write holds after it what it held before. -/
theorem keep2 (U : Valuation τ sig (Elt F)) (r : Ref sig .tc) (h : r ∉ written2) :
    StableHlo.after hostOps2 U (Proc.devRef .tc r) = U (Proc.devRef .tc r) :=
  StableHlo.after_of_writes_sub hostOps2 U writes2 h

/-- The buffers the fourth layer's stretch writes, in order. -/
abbrev written3 : List (Ref sig .tc) := [main_c_12, main_v68, main_v69, main_c_13, main_v70, main_v71, main_v72, main_v73, main_v74, main_cst_14, main_v75, main_v76, main_v77, main_v78, main_v79, main_v80, main_v81, main_v82, main_v83, main_v84]
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the fourth layer's stretch does not write holds after it what it held before. -/
theorem keep3 (U : Valuation τ sig (Elt F)) (r : Ref sig .tc) (h : r ∉ written3) :
    StableHlo.after hostOps3 U (Proc.devRef .tc r) = U (Proc.devRef .tc r) :=
  StableHlo.after_of_writes_sub hostOps3 U writes3 h

/-! ## Along the chain of boundaries -/

variable (m : (ℓ : Loc nD τ sig) → Buf (Elt F) ℓ) (ρ : Dev nD → PrngReg) (c : Dev nD)

/-- A buffer none of the first three stretches writes is, when the first grid is entered, as launched. -/
theorem W3_launch (r : Ref sig .tc) (h0 : r ∉ written0) (h0a : r ∉ written0a) (h0b : r ∉ written0b) :
    W3 m ρ c (Proc.devRef .tc r) = m ((c : Thread nD τ).loc r) :=
  (keep0b _ r h0b).trans ((keep0a _ r h0a).trans ((keep0 _ r h0).trans rfl))

/-- Across the first grid: a buffer that is none of its arrays. -/
theorem W4_keep (r : Ref sig .tc) (a0 : ∀ w, Pipeline.arrRef spec0 w ≠ r) :
    W4 m ρ c (Proc.devRef .tc r) = W3 m ρ c (Proc.devRef .tc r) := W4_of_ne m ρ c r a0

/-- Up to the third grid's entry stretch. -/
theorem W6_keep (r : Ref sig .tc) (a0 : ∀ w, Pipeline.arrRef spec0 w ≠ r) (h1 : r ∉ written1)
    (a1 : ∀ w, Pipeline.arrRef spec1 w ≠ r) :
    W6 m ρ c (Proc.devRef .tc r) = W3 m ρ c (Proc.devRef .tc r) :=
  (W6_of_ne m ρ c r a1).trans ((keep1 _ r h1).trans (W4_keep m ρ c r a0))

/-- Up to the fourth grid's entry stretch. -/
theorem W8_keep (r : Ref sig .tc) (a0 : ∀ w, Pipeline.arrRef spec0 w ≠ r) (h1 : r ∉ written1)
    (a1 : ∀ w, Pipeline.arrRef spec1 w ≠ r) (h2 : r ∉ written2) (a2 : ∀ w, Pipeline.arrRef spec2 w ≠ r) :
    W8 m ρ c (Proc.devRef .tc r) = W3 m ρ c (Proc.devRef .tc r) :=
  (W8_of_ne m ρ c r a2).trans ((keep2 _ r h2).trans (W6_keep m ρ c r a0 h1 a1))

end Cert.KernelIdeal.Fold

end
-- ==== Proof.KernelStretch.lean ====
/-
  The host operations between the grids, read from any contents.

  Each stretch of host operations is a straight line; what a buffer holds after it is the composition of the operations
  that lead to it, applied to what the stretch was entered with (`U`). Read that way: the first stretch slices the two
  rows of the edge list (`S`, `D`) and counts in-degrees; the second takes `1 / deg` where `deg > 0` and `0` elsewhere; the
  third spreads that into the column `I` and prepares the first layer's operands; each later stretch prepares one
  layer's operands from the previous layer's output: its neighbourhood mean (`Cert.Sage.mean128`), the two weight
  matrices transposed, and the bias as a row. The right-hand sides use the reference program's own names for the same
  values (its stages `val_main_v…`), so that the two programs meet in one vocabulary; the only facts used beyond
  unfolding are that narrowing the float format is the identity on exact values and that a `[C] → [1, C]` reshape is a
  broadcast along axis 1.
-/
import proofs.«181820_j11081015623738_1_alg».proof.Proof.Gen.KernelIdeal.Frame
import proofs.«181820_j11081015623738_1_alg».proof.Proof.SageNet
import proofs.«181820_j11081015623738_1_alg».proof.Proof.RefReadP

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.Sage Cert.Lib.LinLayer

variable (U : Valuation τ sig (Elt Ideal))

/-! ## Before the first grid -/

/-- The edges' source ids: row 0 of the edge list. -/
theorem src : after hostOps0 U (Proc.devRef .tc main_v1) = Cert.ReferenceIdeal.ReadP.val_main_v1 (F := Ideal) (U (Proc.devRef .tc main_arg1)) := by
  simp only [hostOps0]
  after_results
  rfl
/-- The edges' destination ids: row 1 of the edge list. -/
theorem dst : after hostOps0 U (Proc.devRef .tc main_v3) = Cert.ReferenceIdeal.ReadP.val_main_v3 (F := Ideal) (U (Proc.devRef .tc main_arg1)) := by
  simp only [hostOps0]
  after_results
  rfl
/-- Where the in-degree is positive. -/
theorem degPos : after hostOps0 U (Proc.devRef .tc main_v9) = Cert.ReferenceIdeal.ReadP.val_main_v9 (F := Ideal) (U (Proc.devRef .tc main_arg1)) := by
  simp only [hostOps0]
  after_results
  rfl
/-- One over the in-degree. -/
theorem degInv : after hostOps0 U (Proc.devRef .tc main_v11) = Cert.ReferenceIdeal.ReadP.val_main_v11 (F := Ideal) (U (Proc.devRef .tc main_arg1)) := by
  simp only [hostOps0]
  after_results
  rfl
/-- The zero the inverse in-degree is replaced by at a node no edge points at. -/
theorem zero : after hostOps0 U (Proc.devRef .tc main_cst_3) = Cert.ReferenceIdeal.ReadP.val_main_cst_3 (F := Ideal) := by
  simp only [hostOps0]
  after_results
  rfl

/-- The second stretch selects, node by node, between one over the in-degree and a spread zero. -/
theorem invRaw : after hostOps0_1 U (Proc.devRef .tc main_v12)
    = select (U (Proc.devRef .tc main_v9)) (U (Proc.devRef .tc main_v11)) (broadcastInDim S100000 ![] bcast_S_S100000 (id (U (Proc.devRef .tc main_cst_3)))) := by
  simp only [hostOps0_1]
  after_results
  rfl

/-- The inverse in-degree, zero at a node no edge points at, from the three values above. -/
theorem inv (e : (⟨S2x1600000, .i32⟩ : BufTy).Contents (Elt Ideal))
    (h9 : (U (Proc.devRef .tc main_v9)) = Cert.ReferenceIdeal.ReadP.val_main_v9 (F := Ideal) e) (h11 : (U (Proc.devRef .tc main_v11)) = Cert.ReferenceIdeal.ReadP.val_main_v11 (F := Ideal) e)
    (h0 : (U (Proc.devRef .tc main_cst_3)) = Cert.ReferenceIdeal.ReadP.val_main_cst_3 (F := Ideal)) :
    after hostOps0_1 U (Proc.devRef .tc main_v12) = Cert.ReferenceIdeal.ReadP.val_main_v12 (F := Ideal) e := by
  rw [invRaw, h9, h11, h0]
  unfold Cert.ReferenceIdeal.ReadP.val_main_v12 Cert.ReferenceIdeal.ReadP.val_main_call0_v1 Cert.ReferenceIdeal.ReadP.val_main_call0_v0
  rfl

/-- The inverse in-degrees as a column. -/
theorem invCol (e : (⟨S2x1600000, .i32⟩ : BufTy).Contents (Elt Ideal))
    (h12 : (U (Proc.devRef .tc main_v12)) = Cert.ReferenceIdeal.ReadP.val_main_v12 (F := Ideal) e) :
    after hostOps0_2 U (Proc.devRef .tc main_v13) = Cert.ReferenceIdeal.ReadP.val_main_v13 (F := Ideal) e := by
  simp only [hostOps0_2]
  after_results
  rw [h12]
  rfl
set_option maxHeartbeats 4000000 in
/-- The first layer's neighbourhood means: the mean of the input features. -/
theorem means0 (e : (⟨S2x1600000, .i32⟩ : BufTy).Contents (Elt Ideal))
    (h12 : (U (Proc.devRef .tc main_v12)) = Cert.ReferenceIdeal.ReadP.val_main_v12 (F := Ideal) e) :
    after hostOps0_2 U (Proc.devRef .tc main_v25)
      = mean64 (U (Proc.devRef .tc main_v1)) (U (Proc.devRef .tc main_v3)) (Cert.ReferenceIdeal.ReadP.val_main_v13 (F := Ideal) e) (U (Proc.devRef .tc main_arg0)) := by
  simp only [hostOps0_2]
  after_results_simp
  rw [h12]
  unfold mean64 srcCol Cert.ReferenceIdeal.ReadP.val_main_v13
  rfl
/-- The first layer's first weight matrix, transposed. -/
theorem wl0 : after hostOps0_2 U (Proc.devRef .tc main_v27) = Cert.ReferenceIdeal.ReadP.val_main_v26 (F := Ideal) (U (Proc.devRef .tc main_arg2)) := by
  simp only [hostOps0_2]
  after_results
  rfl
/-- The first layer's second weight matrix, transposed. -/
theorem wr0 : after hostOps0_2 U (Proc.devRef .tc main_v29) = Cert.ReferenceIdeal.ReadP.val_main_v31 (F := Ideal) (U (Proc.devRef .tc main_arg4)) := by
  simp only [hostOps0_2]
  after_results
  rfl
/-- The first layer's bias as a row. -/
theorem bias0 : after hostOps0_2 U (Proc.devRef .tc main_v30) = Cert.ReferenceIdeal.ReadP.val_main_v28 (F := Ideal) (U (Proc.devRef .tc main_arg3)) := by
  simp only [hostOps0_2]
  after_results
  exact row_two_ways (C := 128) (U (Proc.devRef .tc main_arg3)) shapeCasts_S128_S1x128 Cert.ReferenceIdeal.Gen.bcast_S128_S1x128_1

/-! ## The second layer's stretch -/

set_option maxHeartbeats 4000000 in
/-- Its neighbourhood means: the mean of the previous layer's output. -/
theorem means1 : after hostOps1 U (Proc.devRef .tc main_v43)
    = mean128 (U (Proc.devRef .tc main_v1)) (U (Proc.devRef .tc main_v3)) (U (Proc.devRef .tc main_v13)) (U (Proc.devRef .tc main_v31)) := by
  simp only [hostOps1]
  after_results_simp
  unfold mean128 srcCol
  rfl
/-- Its first weight matrix, transposed (the narrowing of the float format is the identity on exact values). -/
theorem wl1 : after hostOps1 U (Proc.devRef .tc main_v45) = Cert.ReferenceIdeal.ReadP.val_main_v47 (F := Ideal) (U (Proc.devRef .tc main_arg5)) := by
  simp only [hostOps1]
  after_results
  rfl
/-- Its second weight matrix, transposed. -/
theorem wr1 : after hostOps1 U (Proc.devRef .tc main_v47) = Cert.ReferenceIdeal.ReadP.val_main_v52 (F := Ideal) (U (Proc.devRef .tc main_arg7)) := by
  simp only [hostOps1]
  after_results
  rfl
/-- Its bias as a row: the reshape `[128] → [1, 128]` is the broadcast along axis 1. -/
theorem bias1 : after hostOps1 U (Proc.devRef .tc main_v48) = Cert.ReferenceIdeal.ReadP.val_main_v49 (F := Ideal) (U (Proc.devRef .tc main_arg6)) := by
  simp only [hostOps1]
  after_results
  exact row_two_ways (C := 128) (U (Proc.devRef .tc main_arg6)) shapeCasts_S128_S1x128 Cert.ReferenceIdeal.Gen.bcast_S128_S1x128_1

/-! ## The third layer's stretch -/

set_option maxHeartbeats 4000000 in
/-- Its neighbourhood means: the mean of the previous layer's output. -/
theorem means2 : after hostOps2 U (Proc.devRef .tc main_v61)
    = mean128 (U (Proc.devRef .tc main_v1)) (U (Proc.devRef .tc main_v3)) (U (Proc.devRef .tc main_v13)) (U (Proc.devRef .tc main_v49)) := by
  simp only [hostOps2]
  after_results_simp
  unfold mean128 srcCol
  rfl
/-- Its first weight matrix, transposed (the narrowing of the float format is the identity on exact values). -/
theorem wl2 : after hostOps2 U (Proc.devRef .tc main_v63) = Cert.ReferenceIdeal.ReadP.val_main_v68 (F := Ideal) (U (Proc.devRef .tc main_arg8)) := by
  simp only [hostOps2]
  after_results
  rfl
/-- Its second weight matrix, transposed. -/
theorem wr2 : after hostOps2 U (Proc.devRef .tc main_v65) = Cert.ReferenceIdeal.ReadP.val_main_v73 (F := Ideal) (U (Proc.devRef .tc main_arg10)) := by
  simp only [hostOps2]
  after_results
  rfl
/-- Its bias as a row: the reshape `[128] → [1, 128]` is the broadcast along axis 1. -/
theorem bias2 : after hostOps2 U (Proc.devRef .tc main_v66) = Cert.ReferenceIdeal.ReadP.val_main_v70 (F := Ideal) (U (Proc.devRef .tc main_arg9)) := by
  simp only [hostOps2]
  after_results
  exact row_two_ways (C := 128) (U (Proc.devRef .tc main_arg9)) shapeCasts_S128_S1x128 Cert.ReferenceIdeal.Gen.bcast_S128_S1x128_1

/-! ## The fourth layer's stretch -/

set_option maxHeartbeats 4000000 in
/-- Its neighbourhood means: the mean of the previous layer's output. -/
theorem means3 : after hostOps3 U (Proc.devRef .tc main_v79)
    = mean128 (U (Proc.devRef .tc main_v1)) (U (Proc.devRef .tc main_v3)) (U (Proc.devRef .tc main_v13)) (U (Proc.devRef .tc main_v67)) := by
  simp only [hostOps3]
  after_results_simp
  unfold mean128 srcCol
  rfl
/-- Its first weight matrix, transposed (the narrowing of the float format is the identity on exact values). -/
theorem wl3 : after hostOps3 U (Proc.devRef .tc main_v81) = Cert.ReferenceIdeal.ReadP.val_main_v89 (F := Ideal) (U (Proc.devRef .tc main_arg11)) := by
  simp only [hostOps3]
  after_results
  rfl
/-- Its second weight matrix, transposed. -/
theorem wr3 : after hostOps3 U (Proc.devRef .tc main_v83) = Cert.ReferenceIdeal.ReadP.val_main_v94 (F := Ideal) (U (Proc.devRef .tc main_arg13)) := by
  simp only [hostOps3]
  after_results
  rfl
/-- Its bias as a row: the reshape `[64] → [1, 64]` is the broadcast along axis 1. -/
theorem bias3 : after hostOps3 U (Proc.devRef .tc main_v84) = Cert.ReferenceIdeal.ReadP.val_main_v91 (F := Ideal) (U (Proc.devRef .tc main_arg12)) := by
  simp only [hostOps3]
  after_results
  exact row_two_ways (C := 64) (U (Proc.devRef .tc main_arg12)) shapeCasts_S64_S1x64 Cert.ReferenceIdeal.Gen.bcast_S64_S1x64_1

end Cert.KernelIdeal.Stretch

end
-- ==== Proof.LibBiasLast.lean ====
/-
  A linear graph-convolution layer whose block body adds its two matrix products first and the bias row last,
      (agg · wrel + x · wroot) + bias row,
  optionally clipped below at zero, is the layer `lin` / `linRelu` of `LibLinLayer.lean`,
      agg · wrel + bias row + x · wroot:
  addition of extended reals is commutative and associative, so the order in which the three summands are added does not
  matter, and no entry needs to be finite. Here the two weight operands arrive as arrays already in the narrower float
  format and the two data operands are narrowed inside the body; on exact values both are the identity.
-/
import Idealize.ShloMosaic.Lib.ValueIdx
import Idealize.ShloMosaic.Lib.Pipeline.Value
import Idealize.ShloMosaic.PureOps.Ideal.Laws
import proofs.«181820_j11081015623738_1_alg».proof.Proof.LibLinLayer

noncomputable section

namespace Cert.Lib.BiasLast

open Idealize.ShloMosaic Idealize.ShloMosaic.ValueIdx Cert.Lib.PlainDot Cert.Lib.LinLayer

/-- Two `tpu.matmul`s into zero accumulators added together, then the bias row spread over the rows: entry `(p, q)` is
    `(∑ k, agg[p,k] · wrel[k,q]) + (∑ k, x[p,k] · wroot[k,q]) + b[0,q]`, the layer's entry with its last two summands
    exchanged. -/
theorem body_lin {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .bf16) (b : FVec Ideal ⟨2, ![1, C]⟩ .f32) :
    addf (addf (matmul d none (truncf .bf16 agg hlt) wrel (constant (F := Ideal) ⟨2, ![M, C]⟩ .f32 0x00000000#32))
          (matmul d none (truncf .bf16 x hlt) wroot (constant (F := Ideal) ⟨2, ![M, C]⟩ .f32 0x00000000#32)))
        (broadcastTo ⟨2, ![M, C]⟩ b hb)
      = lin agg x wrel wroot b := by
  funext j
  rw [addf_apply, addf_apply]
  show FloatOps.matmul d none (truncf .bf16 agg hlt) wrel (constant (F := Ideal) ⟨2, ![M, C]⟩ .f32 0x00000000#32) j
      + FloatOps.matmul d none (truncf .bf16 x hlt) wroot (constant (F := Ideal) ⟨2, ![M, C]⟩ .f32 0x00000000#32) j
      + broadcastTo ⟨2, ![M, C]⟩ b hb j = _
  rw [matmul_zero_eq d hd none (truncf .bf16 agg hlt) wrel, matmul_zero_eq d hd none (truncf .bf16 x hlt) wroot,
    spread_row b hb j]
  show rowsByCols agg wrel j + rowsByCols x wroot j + b (ix2 (0 : Fin 1) (j 1))
      = rowsByCols agg wrel j + b (ix2 (0 : Fin 1) (j 1)) + rowsByCols x wroot j
  exact add_right_comm _ _ _

/-- The same followed by a maximum with the zero word spread over the block: the rectified layer. -/
theorem body_linRelu {M K C : ℕ} (d : DotDims ⟨2, ![M, K]⟩ ⟨2, ![K, C]⟩ ⟨2, ![M, C]⟩) (hd : d = DotDims.plain M K C)
    (hb : (⟨2, ![1, C]⟩ : Shape).Broadcasts ⟨2, ![M, C]⟩) (hlt : FTy.bf16.bits < FTy.f32.bits)
    (agg x : FVec Ideal ⟨2, ![M, K]⟩ .f32) (wrel wroot : FVec Ideal ⟨2, ![K, C]⟩ .bf16) (b : FVec Ideal ⟨2, ![1, C]⟩ .f32) :
    maximumf (addf (addf (matmul d none (truncf .bf16 agg hlt) wrel (constant (F := Ideal) ⟨2, ![M, C]⟩ .f32 0x00000000#32))
          (matmul d none (truncf .bf16 x hlt) wroot (constant (F := Ideal) ⟨2, ![M, C]⟩ .f32 0x00000000#32)))
        (broadcastTo ⟨2, ![M, C]⟩ b hb))
        (broadcast ⟨2, ![M, C]⟩ (Scalar.ofBits (F := Ideal) .f32 0x00000000#32))
      = linRelu agg x wrel wroot b := by
  rw [body_lin d hd hb hlt agg x wrel wroot b]
  funext j
  rw [maximumf_apply, broadcast_apply]
  show max _ (Ideal.ofBits .f32 0x00000000#32) = _
  rw [Ideal.ofBits_zero_f32]
  rfl

end Cert.Lib.BiasLast

end
-- ==== Proof.Layer0Value.lean ====
/-
  The first layer's grid, read as one array: after its twenty points have run, the layer's output array holds
  `linRelu` of the five arrays the region was entered with — the neighbourhood means, the features, the two weight
  matrices (as they multiply from the right) and the bias row.

  A point `t` of the grid is handed rows `5000·t … 5000·t + 4999` of the means and of the features and the whole of the
  weights and the bias row, and writes rows `5000·t … 5000·t + 4999` of the output. A row of the layer depends only on
  the same row of the means and of the features, so what point `t` writes is those rows of the layer of the WHOLE
  arrays; the twenty row blocks tile the `100000` rows, so every entry of the output array is written, by the point
  `row / 5000`. Stated for any contents `V` the region is entered with.
-/
import proofs.«181820_j11081015623738_1_alg».proof.Proof.Gen.KernelIdeal.Frame
import proofs.«181820_j11081015623738_1_alg».proof.Proof.LibBiasLast

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.LinLayer

variable (V : (c : Dev nD) → (b : Ref sig .tc) → Buf (Elt Ideal) ((c : Thread nD τ).loc b))

theorem origin : (![0, 0] : Fin 2 → Nat) = fun _ => 0 := funext fun a => by fin_cases a <;> rfl

/-- The body's one store, as a function of the five blocks it loads: the layer of the blocks. -/
theorem block_eq (x0 x1 : Vec Ideal S5000x64 .f32) (x2 x3 : Vec Ideal S64x128 .bf16) (x4 : Vec Ideal S1x128 .f32) :
    out0_5 (F := Ideal) x0 x1 x2 x3 x4 = linRelu x0 x1 x2 x3 x4 := by
  unfold out0_5
  rw [View.canon_unit_zero origin]
  simp only [View.ld_unit_zero (S := S5000x64) origin, View.ld_unit_zero (S := S64x128) origin, View.ld_unit_zero (S := S1x128) origin]
  unfold k0_pay1
  simp only [shapeCast_self]
  exact Cert.Lib.BiasLast.body_linRelu dot_S5000x64_S64x128_S5000x128_1_0_0_1_n_n rfl broadcasts_S1x128_S5000x128 bitsLt_bf16_f32 x0 x1 x2 x3 x4

/-- The index maps over the grid: the means', the features' and the output's row block is the point's number, every
    other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 1600000 in
/-- What point `t` writes back is its row block of the layer of the whole arrays. -/
theorem flushed_eq (c : Dev nD) (t : Fin cfg0.N) :
    (dat0 V c).flushed 5 t = ((cfg0.win 5).blk t).view.read (Elt Ideal)
      (linRelu (V c main_v25) (V c main_arg0) (V c main_v27) (V c main_v29) (V c main_v30)) := by
  show (cfg0.win 5).cut (grid0.coords t) ((dat0 V c).after 5 t) = _
  rw [after0_5, block_eq]
  obtain ⟨e00, e01, e10, e11, e20, e21, e30, e31, e40, e41, e50, e51⟩ := idx_facts t
  funext y
  show linRelu (iblk0 V c 0 t) (iblk0 V c 1 t) (iblk0 V c 2 t) (iblk0 V c 3 t) (iblk0 V c 4 t) y
      = linRelu (V c main_v25) (V c main_arg0) (V c main_v27) (V c main_v29) (V c main_v30) (((cfg0.win 5).blk t).view.emb y)
  refine linRelu_congr (V c main_v25) (V c main_arg0) (V c main_v27) (V c main_v29) (V c main_v30)
    (iblk0 V c 0 t) (iblk0 V c 1 t) (iblk0 V c 2 t) (iblk0 V c 3 t) (iblk0 V c 4 t)
    y (((cfg0.win 5).blk t).view.emb y) ?_ ?_ ?_ ?_ ?_
  · intro q
    show V c main_v25 (((cfg0.win 0).blk t).view.emb (ix2 (y 0) q)) = V c main_v25 (ix2 ((((cfg0.win 5).blk t).view.emb y) 0) q)
    refine congrArg (V c main_v25) (funext fun a => Fin.ext ?_)
    match a with
    | ⟨0, _⟩ =>
      show win0_0.index t (0 : Fin 2) * 5000 + 1 * (y 0).val = win0_5.index t (0 : Fin 2) * 5000 + 1 * (y 0).val
      omega
    | ⟨1, _⟩ =>
      show win0_0.index t (1 : Fin 2) * 64 + 1 * q.val = q.val
      omega
  · intro q
    show V c main_arg0 (((cfg0.win 1).blk t).view.emb (ix2 (y 0) q)) = V c main_arg0 (ix2 ((((cfg0.win 5).blk t).view.emb y) 0) q)
    refine congrArg (V c main_arg0) (funext fun a => Fin.ext ?_)
    match a with
    | ⟨0, _⟩ =>
      show win0_1.index t (0 : Fin 2) * 5000 + 1 * (y 0).val = win0_5.index t (0 : Fin 2) * 5000 + 1 * (y 0).val
      omega
    | ⟨1, _⟩ =>
      show win0_1.index t (1 : Fin 2) * 64 + 1 * q.val = q.val
      omega
  · intro q
    show V c main_v27 (((cfg0.win 2).blk t).view.emb (ix2 q (y 1))) = V c main_v27 (ix2 q ((((cfg0.win 5).blk t).view.emb y) 1))
    refine congrArg (V c main_v27) (funext fun a => Fin.ext ?_)
    match a with
    | ⟨0, _⟩ =>
      show win0_2.index t (0 : Fin 2) * 64 + 1 * q.val = q.val
      omega
    | ⟨1, _⟩ =>
      show win0_2.index t (1 : Fin 2) * 128 + 1 * (y 1).val = win0_5.index t (1 : Fin 2) * 128 + 1 * (y 1).val
      omega
  · intro q
    show V c main_v29 (((cfg0.win 3).blk t).view.emb (ix2 q (y 1))) = V c main_v29 (ix2 q ((((cfg0.win 5).blk t).view.emb y) 1))
    refine congrArg (V c main_v29) (funext fun a => Fin.ext ?_)
    match a with
    | ⟨0, _⟩ =>
      show win0_3.index t (0 : Fin 2) * 64 + 1 * q.val = q.val
      omega
    | ⟨1, _⟩ =>
      show win0_3.index t (1 : Fin 2) * 128 + 1 * (y 1).val = win0_5.index t (1 : Fin 2) * 128 + 1 * (y 1).val
      omega
  · show V c main_v30 (((cfg0.win 4).blk t).view.emb (ix2 (0 : Fin 1) (y 1))) = V c main_v30 (ix2 (0 : Fin 1) ((((cfg0.win 5).blk t).view.emb y) 1))
    refine congrArg (V c main_v30) (funext fun a => Fin.ext ?_)
    match a with
    | ⟨0, _⟩ =>
      show win0_4.index t (0 : Fin 2) * 1 + 1 * 0 = 0
      omega
    | ⟨1, _⟩ =>
      show win0_4.index t (1 : Fin 2) * 128 + 1 * (y 1).val = win0_5.index t (1 : Fin 2) * 128 + 1 * (y 1).val
      omega

/-- An entry of the output array is in point `t`'s block iff its row is among that block's `5000` rows. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- Every entry of the output array is written: entry `(r, q)` by the point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨e00, e01, e10, e11, e20, e21, e30, e31, e40, e41, e50, e51⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The output array after the region: the layer of the arrays the region was entered with. -/
theorem layer (c : Dev nD) :
    (dat0 V c).arrAt 5 cfg0.N = linRelu (V c main_v25) (V c main_arg0) (V c main_v27) (V c main_v29) (V c main_v30) :=
  (dat0 V c).arrAt_eq_of_cover 5 _ (fun t _ => flushed_eq V c t) cover

end Cert.KernelIdeal.Layer0

end
-- ==== Proof.Layer1Value.lean ====
/-
  The second layer's grid, read as one array: after its twenty points have run, the layer's output array holds
  `linRelu` of the five arrays the region was entered with — the neighbourhood means, the features, the two weight
  matrices (as they multiply from the right) and the bias row.

  A point `t` of the grid is handed rows `5000·t … 5000·t + 4999` of the means and of the features and the whole of the
  weights and the bias row, and writes rows `5000·t … 5000·t + 4999` of the output. A row of the layer depends only on
  the same row of the means and of the features, so what point `t` writes is those rows of the layer of the WHOLE
  arrays; the twenty row blocks tile the `100000` rows, so every entry of the output array is written, by the point
  `row / 5000`. Stated for any contents `V` the region is entered with.
-/
import proofs.«181820_j11081015623738_1_alg».proof.Proof.Gen.KernelIdeal.Frame
import proofs.«181820_j11081015623738_1_alg».proof.Proof.LibBiasLast

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.LinLayer

variable (V : (c : Dev nD) → (b : Ref sig .tc) → Buf (Elt Ideal) ((c : Thread nD τ).loc b))

theorem origin : (![0, 0] : Fin 2 → Nat) = fun _ => 0 := funext fun a => by fin_cases a <;> rfl

/-- The body's one store, as a function of the five blocks it loads: the layer of the blocks. -/
theorem block_eq (x0 x1 : Vec Ideal S5000x128 .f32) (x2 x3 : Vec Ideal S128x128 .bf16) (x4 : Vec Ideal S1x128 .f32) :
    out1_5 (F := Ideal) x0 x1 x2 x3 x4 = linRelu x0 x1 x2 x3 x4 := by
  unfold out1_5
  rw [View.canon_unit_zero origin]
  simp only [View.ld_unit_zero (S := S5000x128) origin, View.ld_unit_zero (S := S128x128) origin, View.ld_unit_zero (S := S1x128) origin]
  unfold k1_pay1
  simp only [shapeCast_self]
  exact Cert.Lib.BiasLast.body_linRelu dot_S5000x128_S128x128_S5000x128_1_0_0_1_n_n rfl broadcasts_S1x128_S5000x128 bitsLt_bf16_f32 x0 x1 x2 x3 x4

/-- The index maps over the grid: the means', the features' and the output's row block is the point's number, every
    other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 1600000 in
/-- What point `t` writes back is its row block of the layer of the whole arrays. -/
theorem flushed_eq (c : Dev nD) (t : Fin cfg1.N) :
    (dat1 V c).flushed 5 t = ((cfg1.win 5).blk t).view.read (Elt Ideal)
      (linRelu (V c main_v43) (V c main_v31) (V c main_v45) (V c main_v47) (V c main_v48)) := by
  show (cfg1.win 5).cut (grid1.coords t) ((dat1 V c).after 5 t) = _
  rw [after1_5, block_eq]
  obtain ⟨e00, e01, e10, e11, e20, e21, e30, e31, e40, e41, e50, e51⟩ := idx_facts t
  funext y
  show linRelu (iblk1 V c 0 t) (iblk1 V c 1 t) (iblk1 V c 2 t) (iblk1 V c 3 t) (iblk1 V c 4 t) y
      = linRelu (V c main_v43) (V c main_v31) (V c main_v45) (V c main_v47) (V c main_v48) (((cfg1.win 5).blk t).view.emb y)
  refine linRelu_congr (V c main_v43) (V c main_v31) (V c main_v45) (V c main_v47) (V c main_v48)
    (iblk1 V c 0 t) (iblk1 V c 1 t) (iblk1 V c 2 t) (iblk1 V c 3 t) (iblk1 V c 4 t)
    y (((cfg1.win 5).blk t).view.emb y) ?_ ?_ ?_ ?_ ?_
  · intro q
    show V c main_v43 (((cfg1.win 0).blk t).view.emb (ix2 (y 0) q)) = V c main_v43 (ix2 ((((cfg1.win 5).blk t).view.emb y) 0) q)
    refine congrArg (V c main_v43) (funext fun a => Fin.ext ?_)
    match a with
    | ⟨0, _⟩ =>
      show win1_0.index t (0 : Fin 2) * 5000 + 1 * (y 0).val = win1_5.index t (0 : Fin 2) * 5000 + 1 * (y 0).val
      omega
    | ⟨1, _⟩ =>
      show win1_0.index t (1 : Fin 2) * 128 + 1 * q.val = q.val
      omega
  · intro q
    show V c main_v31 (((cfg1.win 1).blk t).view.emb (ix2 (y 0) q)) = V c main_v31 (ix2 ((((cfg1.win 5).blk t).view.emb y) 0) q)
    refine congrArg (V c main_v31) (funext fun a => Fin.ext ?_)
    match a with
    | ⟨0, _⟩ =>
      show win1_1.index t (0 : Fin 2) * 5000 + 1 * (y 0).val = win1_5.index t (0 : Fin 2) * 5000 + 1 * (y 0).val
      omega
    | ⟨1, _⟩ =>
      show win1_1.index t (1 : Fin 2) * 128 + 1 * q.val = q.val
      omega
  · intro q
    show V c main_v45 (((cfg1.win 2).blk t).view.emb (ix2 q (y 1))) = V c main_v45 (ix2 q ((((cfg1.win 5).blk t).view.emb y) 1))
    refine congrArg (V c main_v45) (funext fun a => Fin.ext ?_)
    match a with
    | ⟨0, _⟩ =>
      show win1_2.index t (0 : Fin 2) * 128 + 1 * q.val = q.val
      omega
    | ⟨1, _⟩ =>
      show win1_2.index t (1 : Fin 2) * 128 + 1 * (y 1).val = win1_5.index t (1 : Fin 2) * 128 + 1 * (y 1).val
      omega
  · intro q
    show V c main_v47 (((cfg1.win 3).blk t).view.emb (ix2 q (y 1))) = V c main_v47 (ix2 q ((((cfg1.win 5).blk t).view.emb y) 1))
    refine congrArg (V c main_v47) (funext fun a => Fin.ext ?_)
    match a with
    | ⟨0, _⟩ =>
      show win1_3.index t (0 : Fin 2) * 128 + 1 * q.val = q.val
      omega
    | ⟨1, _⟩ =>
      show win1_3.index t (1 : Fin 2) * 128 + 1 * (y 1).val = win1_5.index t (1 : Fin 2) * 128 + 1 * (y 1).val
      omega
  · show V c main_v48 (((cfg1.win 4).blk t).view.emb (ix2 (0 : Fin 1) (y 1))) = V c main_v48 (ix2 (0 : Fin 1) ((((cfg1.win 5).blk t).view.emb y) 1))
    refine congrArg (V c main_v48) (funext fun a => Fin.ext ?_)
    match a with
    | ⟨0, _⟩ =>
      show win1_4.index t (0 : Fin 2) * 1 + 1 * 0 = 0
      omega
    | ⟨1, _⟩ =>
      show win1_4.index t (1 : Fin 2) * 128 + 1 * (y 1).val = win1_5.index t (1 : Fin 2) * 128 + 1 * (y 1).val
      omega

/-- An entry of the output array is in point `t`'s block iff its row is among that block's `5000` rows. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49).slice (win1_5.rect t)).set ↔ _
  rw [View.set_slice_whole, Rect.mem_set_unit]
  exact Iff.rfl

/-- Every entry of the output array is written: entry `(r, q)` by the point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨e00, e01, e10, e11, e20, e21, e30, e31, e40, e41, e50, e51⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array after the region: the layer of the arrays the region was entered with. -/
theorem layer (c : Dev nD) :
    (dat1 V c).arrAt 5 cfg1.N = linRelu (V c main_v43) (V c main_v31) (V c main_v45) (V c main_v47) (V c main_v48) :=
  (dat1 V c).arrAt_eq_of_cover 5 _ (fun t _ => flushed_eq V c t) cover

end Cert.KernelIdeal.Layer1

end
-- ==== Proof.Layer2Value.lean ====
/-
  The third layer's grid, read as one array: after its twenty points have run, the layer's output array holds
  `linRelu` of the five arrays the region was entered with — the neighbourhood means, the features, the two weight
  matrices (as they multiply from the right) and the bias row.

  A point `t` of the grid is handed rows `5000·t … 5000·t + 4999` of the means and of the features and the whole of the
  weights and the bias row, and writes rows `5000·t … 5000·t + 4999` of the output. A row of the layer depends only on
  the same row of the means and of the features, so what point `t` writes is those rows of the layer of the WHOLE
  arrays; the twenty row blocks tile the `100000` rows, so every entry of the output array is written, by the point
  `row / 5000`. Stated for any contents `V` the region is entered with.
-/
import proofs.«181820_j11081015623738_1_alg».proof.Proof.Gen.KernelIdeal.Frame
import proofs.«181820_j11081015623738_1_alg».proof.Proof.LibBiasLast

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.LinLayer

variable (V : (c : Dev nD) → (b : Ref sig .tc) → Buf (Elt Ideal) ((c : Thread nD τ).loc b))

theorem origin : (![0, 0] : Fin 2 → Nat) = fun _ => 0 := funext fun a => by fin_cases a <;> rfl

/-- The body's one store, as a function of the five blocks it loads: the layer of the blocks. -/
theorem block_eq (x0 x1 : Vec Ideal S5000x128 .f32) (x2 x3 : Vec Ideal S128x128 .bf16) (x4 : Vec Ideal S1x128 .f32) :
    out2_5 (F := Ideal) x0 x1 x2 x3 x4 = linRelu x0 x1 x2 x3 x4 := by
  unfold out2_5
  rw [View.canon_unit_zero origin]
  simp only [View.ld_unit_zero (S := S5000x128) origin, View.ld_unit_zero (S := S128x128) origin, View.ld_unit_zero (S := S1x128) origin]
  unfold k2_pay1
  simp only [shapeCast_self]
  exact Cert.Lib.BiasLast.body_linRelu dot_S5000x128_S128x128_S5000x128_1_0_0_1_n_n rfl broadcasts_S1x128_S5000x128 bitsLt_bf16_f32 x0 x1 x2 x3 x4

/-- The index maps over the grid: the means', the features' and the output's row block is the point's number, every
    other block index is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
/-- What point `t` writes back is its row block of the layer of the whole arrays. -/
theorem flushed_eq (c : Dev nD) (t : Fin cfg2.N) :
    (dat2 V c).flushed 5 t = ((cfg2.win 5).blk t).view.read (Elt Ideal)
      (linRelu (V c main_v61) (V c main_v49) (V c main_v63) (V c main_v65) (V c main_v66)) := by
  show (cfg2.win 5).cut (grid2.coords t) ((dat2 V c).after 5 t) = _
  rw [after2_5, block_eq]
  obtain ⟨e00, e01, e10, e11, e20, e21, e30, e31, e40, e41, e50, e51⟩ := idx_facts t
  funext y
  show linRelu (iblk2 V c 0 t) (iblk2 V c 1 t) (iblk2 V c 2 t) (iblk2 V c 3 t) (iblk2 V c 4 t) y
      = linRelu (V c main_v61) (V c main_v49) (V c main_v63) (V c main_v65) (V c main_v66) (((cfg2.win 5).blk t).view.emb y)
  refine linRelu_congr (V c main_v61) (V c main_v49) (V c main_v63) (V c main_v65) (V c main_v66)
    (iblk2 V c 0 t) (iblk2 V c 1 t) (iblk2 V c 2 t) (iblk2 V c 3 t) (iblk2 V c 4 t)
    y (((cfg2.win 5).blk t).view.emb y) ?_ ?_ ?_ ?_ ?_
  · intro q
    show V c main_v61 (((cfg2.win 0).blk t).view.emb (ix2 (y 0) q)) = V c main_v61 (ix2 ((((cfg2.win 5).blk t).view.emb y) 0) q)
    refine congrArg (V c main_v61) (funext fun a => Fin.ext ?_)
    match a with
    | ⟨0, _⟩ =>
      show win2_0.index t (0 : Fin 2) * 5000 + 1 * (y 0).val = win2_5.index t (0 : Fin 2) * 5000 + 1 * (y 0).val
      omega
    | ⟨1, _⟩ =>
      show win2_0.index t (1 : Fin 2) * 128 + 1 * q.val = q.val
      omega
  · intro q
    show V c main_v49 (((cfg2.win 1).blk t).view.emb (ix2 (y 0) q)) = V c main_v49 (ix2 ((((cfg2.win 5).blk t).view.emb y) 0) q)
    refine congrArg (V c main_v49) (funext fun a => Fin.ext ?_)
    match a with
    | ⟨0, _⟩ =>
      show win2_1.index t (0 : Fin 2) * 5000 + 1 * (y 0).val = win2_5.index t (0 : Fin 2) * 5000 + 1 * (y 0).val
      omega
    | ⟨1, _⟩ =>
      show win2_1.index t (1 : Fin 2) * 128 + 1 * q.val = q.val
      omega
  · intro q
    show V c main_v63 (((cfg2.win 2).blk t).view.emb (ix2 q (y 1))) = V c main_v63 (ix2 q ((((cfg2.win 5).blk t).view.emb y) 1))
    refine congrArg (V c main_v63) (funext fun a => Fin.ext ?_)
    match a with
    | ⟨0, _⟩ =>
      show win2_2.index t (0 : Fin 2) * 128 + 1 * q.val = q.val
      omega
    | ⟨1, _⟩ =>
      show win2_2.index t (1 : Fin 2) * 128 + 1 * (y 1).val = win2_5.index t (1 : Fin 2) * 128 + 1 * (y 1).val
      omega
  · intro q
    show V c main_v65 (((cfg2.win 3).blk t).view.emb (ix2 q (y 1))) = V c main_v65 (ix2 q ((((cfg2.win 5).blk t).view.emb y) 1))
    refine congrArg (V c main_v65) (funext fun a => Fin.ext ?_)
    match a with
    | ⟨0, _⟩ =>
      show win2_3.index t (0 : Fin 2) * 128 + 1 * q.val = q.val
      omega
    | ⟨1, _⟩ =>
      show win2_3.index t (1 : Fin 2) * 128 + 1 * (y 1).val = win2_5.index t (1 : Fin 2) * 128 + 1 * (y 1).val
      omega
  · show V c main_v66 (((cfg2.win 4).blk t).view.emb (ix2 (0 : Fin 1) (y 1))) = V c main_v66 (ix2 (0 : Fin 1) ((((cfg2.win 5).blk t).view.emb y) 1))
    refine congrArg (V c main_v66) (funext fun a => Fin.ext ?_)
    match a with
    | ⟨0, _⟩ =>
      show win2_4.index t (0 : Fin 2) * 1 + 1 * 0 = 0
      omega
    | ⟨1, _⟩ =>
      show win2_4.index t (1 : Fin 2) * 128 + 1 * (y 1).val = win2_5.index t (1 : Fin 2) * 128 + 1 * (y 1).val
      omega

/-- An entry of the output array is in point `t`'s block iff its row is among that block's `5000` rows. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v67).slice (win2_5.rect t)).set ↔ _
  rw [View.set_slice_whole, Rect.mem_set_unit]
  exact Iff.rfl

/-- Every entry of the output array is written: entry `(r, q)` by the point `r / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨e00, e01, e10, e11, e20, e21, e30, e31, e40, e41, e50, e51⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- The output array after the region: the layer of the arrays the region was entered with. -/
theorem layer (c : Dev nD) :
    (dat2 V c).arrAt 5 cfg2.N = linRelu (V c main_v61) (V c main_v49) (V c main_v63) (V c main_v65) (V c main_v66) :=
  (dat2 V c).arrAt_eq_of_cover 5 _ (fun t _ => flushed_eq V c t) cover

end Cert.KernelIdeal.Layer2

end
-- ==== Proof.Layer3Value.lean ====
/-
  The fourth layer's grid, read as one array: after its twenty points have run, the layer's output array holds
  `lin` of the five arrays the region was entered with — the neighbourhood means, the features, the two weight
  matrices (as they multiply from the right) and the bias row.

  A point `t` of the grid is handed rows `5000·t … 5000·t + 4999` of the means and of the features and the whole of the
  weights and the bias row, and writes rows `5000·t … 5000·t + 4999` of the output. A row of the layer depends only on
  the same row of the means and of the features, so what point `t` writes is those rows of the layer of the WHOLE
  arrays; the twenty row blocks tile the `100000` rows, so every entry of the output array is written, by the point
  `row / 5000`. Stated for any contents `V` the region is entered with.
-/
import proofs.«181820_j11081015623738_1_alg».proof.Proof.Gen.KernelIdeal.Frame
import proofs.«181820_j11081015623738_1_alg».proof.Proof.LibBiasLast

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.LinLayer

variable (V : (c : Dev nD) → (b : Ref sig .tc) → Buf (Elt Ideal) ((c : Thread nD τ).loc b))

theorem origin : (![0, 0] : Fin 2 → Nat) = fun _ => 0 := funext fun a => by fin_cases a <;> rfl

/-- The body's one store, as a function of the five blocks it loads: the layer of the blocks. -/
theorem block_eq (x0 x1 : Vec Ideal S5000x128 .f32) (x2 x3 : Vec Ideal S128x64 .bf16) (x4 : Vec Ideal S1x64 .f32) :
    out3_5 (F := Ideal) x0 x1 x2 x3 x4 = lin x0 x1 x2 x3 x4 := by
  unfold out3_5
  rw [View.canon_unit_zero origin]
  simp only [View.ld_unit_zero (S := S5000x128) origin, View.ld_unit_zero (S := S128x64) origin, View.ld_unit_zero (S := S1x64) origin]
  unfold k3_pay1
  simp only [shapeCast_self]
  exact Cert.Lib.BiasLast.body_lin dot_S5000x128_S128x64_S5000x64_1_0_0_1_n_n rfl broadcasts_S1x64_S5000x64 bitsLt_bf16_f32 x0 x1 x2 x3 x4

/-- The index maps over the grid: the means', the features' and the output's row block is the point's number, every
    other block index is zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 1600000 in
/-- What point `t` writes back is its row block of the layer of the whole arrays. -/
theorem flushed_eq (c : Dev nD) (t : Fin cfg3.N) :
    (dat3 V c).flushed 5 t = ((cfg3.win 5).blk t).view.read (Elt Ideal)
      (lin (V c main_v79) (V c main_v67) (V c main_v81) (V c main_v83) (V c main_v84)) := by
  show (cfg3.win 5).cut (grid3.coords t) ((dat3 V c).after 5 t) = _
  rw [after3_5, block_eq]
  obtain ⟨e00, e01, e10, e11, e20, e21, e30, e31, e40, e41, e50, e51⟩ := idx_facts t
  funext y
  show lin (iblk3 V c 0 t) (iblk3 V c 1 t) (iblk3 V c 2 t) (iblk3 V c 3 t) (iblk3 V c 4 t) y
      = lin (V c main_v79) (V c main_v67) (V c main_v81) (V c main_v83) (V c main_v84) (((cfg3.win 5).blk t).view.emb y)
  refine lin_congr (V c main_v79) (V c main_v67) (V c main_v81) (V c main_v83) (V c main_v84)
    (iblk3 V c 0 t) (iblk3 V c 1 t) (iblk3 V c 2 t) (iblk3 V c 3 t) (iblk3 V c 4 t)
    y (((cfg3.win 5).blk t).view.emb y) ?_ ?_ ?_ ?_ ?_
  · intro q
    show V c main_v79 (((cfg3.win 0).blk t).view.emb (ix2 (y 0) q)) = V c main_v79 (ix2 ((((cfg3.win 5).blk t).view.emb y) 0) q)
    refine congrArg (V c main_v79) (funext fun a => Fin.ext ?_)
    match a with
    | ⟨0, _⟩ =>
      show win3_0.index t (0 : Fin 2) * 5000 + 1 * (y 0).val = win3_5.index t (0 : Fin 2) * 5000 + 1 * (y 0).val
      omega
    | ⟨1, _⟩ =>
      show win3_0.index t (1 : Fin 2) * 128 + 1 * q.val = q.val
      omega
  · intro q
    show V c main_v67 (((cfg3.win 1).blk t).view.emb (ix2 (y 0) q)) = V c main_v67 (ix2 ((((cfg3.win 5).blk t).view.emb y) 0) q)
    refine congrArg (V c main_v67) (funext fun a => Fin.ext ?_)
    match a with
    | ⟨0, _⟩ =>
      show win3_1.index t (0 : Fin 2) * 5000 + 1 * (y 0).val = win3_5.index t (0 : Fin 2) * 5000 + 1 * (y 0).val
      omega
    | ⟨1, _⟩ =>
      show win3_1.index t (1 : Fin 2) * 128 + 1 * q.val = q.val
      omega
  · intro q
    show V c main_v81 (((cfg3.win 2).blk t).view.emb (ix2 q (y 1))) = V c main_v81 (ix2 q ((((cfg3.win 5).blk t).view.emb y) 1))
    refine congrArg (V c main_v81) (funext fun a => Fin.ext ?_)
    match a with
    | ⟨0, _⟩ =>
      show win3_2.index t (0 : Fin 2) * 128 + 1 * q.val = q.val
      omega
    | ⟨1, _⟩ =>
      show win3_2.index t (1 : Fin 2) * 64 + 1 * (y 1).val = win3_5.index t (1 : Fin 2) * 64 + 1 * (y 1).val
      omega
  · intro q
    show V c main_v83 (((cfg3.win 3).blk t).view.emb (ix2 q (y 1))) = V c main_v83 (ix2 q ((((cfg3.win 5).blk t).view.emb y) 1))
    refine congrArg (V c main_v83) (funext fun a => Fin.ext ?_)
    match a with
    | ⟨0, _⟩ =>
      show win3_3.index t (0 : Fin 2) * 128 + 1 * q.val = q.val
      omega
    | ⟨1, _⟩ =>
      show win3_3.index t (1 : Fin 2) * 64 + 1 * (y 1).val = win3_5.index t (1 : Fin 2) * 64 + 1 * (y 1).val
      omega
  · show V c main_v84 (((cfg3.win 4).blk t).view.emb (ix2 (0 : Fin 1) (y 1))) = V c main_v84 (ix2 (0 : Fin 1) ((((cfg3.win 5).blk t).view.emb y) 1))
    refine congrArg (V c main_v84) (funext fun a => Fin.ext ?_)
    match a with
    | ⟨0, _⟩ =>
      show win3_4.index t (0 : Fin 2) * 1 + 1 * 0 = 0
      omega
    | ⟨1, _⟩ =>
      show win3_4.index t (1 : Fin 2) * 64 + 1 * (y 1).val = win3_5.index t (1 : Fin 2) * 64 + 1 * (y 1).val
      omega

/-- An entry of the output array is in point `t`'s block iff its row is among that block's `5000` rows. -/
theorem mem_blk (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v85).slice (win3_5.rect t)).set ↔ _
  rw [View.set_slice_whole, Rect.mem_set_unit]
  exact Iff.rfl

/-- Every entry of the output array is written: entry `(r, q)` by the point `r / 5000`. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨e00, e01, e10, e11, e20, e21, e30, e31, e40, e41, e50, e51⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

/-- The output array after the region: the layer of the arrays the region was entered with. -/
theorem layer (c : Dev nD) :
    (dat3 V c).arrAt 5 cfg3.N = lin (V c main_v79) (V c main_v67) (V c main_v81) (V c main_v83) (V c main_v84) :=
  (dat3 V c).arrAt_eq_of_cover 5 _ (fun t _ => flushed_eq V c t) cover

end Cert.KernelIdeal.Layer3

end
-- ==== Proof.KernelValue.lean ====
/-
  The kernel program's result is the network of its arguments.

  The run passes ten boundaries. Walking them in order: before the first grid the host operations leave the edge
  endpoints `S`, `D`, the inverse in-degree column `I`, the mean of the input features, the first layer's transposed
  weights and its bias row; the first grid leaves the rectified first layer of those; no later operation touches `S`, `D`,
  `I` or an argument, so each later stretch finds them unchanged and leaves the mean of the previous layer's output
  beside that layer's weights and bias row, and each later grid leaves the next layer. After the fourth grid the
  result buffer holds the four layers in sequence, `Cert.Sage.net`, of the launch contents — with `S`, `D`, `I`, the
  transposed weights and the bias rows spelt by the reference program's own stages, the vocabulary the two programs share.
-/
import proofs.«181820_j11081015623738_1_alg».proof.Proof.KernelRun
import proofs.«181820_j11081015623738_1_alg».proof.Proof.KernelFold
import proofs.«181820_j11081015623738_1_alg».proof.Proof.KernelStretch
import proofs.«181820_j11081015623738_1_alg».proof.Proof.Layer0Value
import proofs.«181820_j11081015623738_1_alg».proof.Proof.Layer1Value
import proofs.«181820_j11081015623738_1_alg».proof.Proof.Layer2Value
import proofs.«181820_j11081015623738_1_alg».proof.Proof.Layer3Value

set_option maxRecDepth 16384

noncomputable section

namespace Cert.KernelIdeal.Net

open Cert.KernelIdeal Cert.KernelIdeal.Gen Cert.KernelIdeal.Fold
open Idealize.ShloMosaic Idealize.ShloMosaic.TcCoe Idealize.SL.Sem
open Cert.Sage Cert.Lib.LinLayer
open Cert.ReferenceIdeal.ReadP (val_main_v1 val_main_v3 val_main_v12 val_main_v13 val_main_v26 val_main_v28 val_main_v31
  val_main_v47 val_main_v49 val_main_v52 val_main_v68 val_main_v70 val_main_v73 val_main_v89 val_main_v91 val_main_v94)

variable (m : (ℓ : Loc nD τ sig) → Buf (Elt Ideal) ℓ) (ρ : Dev nD → PrngReg) (c : Dev nD)

/-- The edges' source ids, destination ids and the inverse in-degree column, of the launched edge list. -/
abbrev srcIds := val_main_v1 (F := Ideal) (m ((c : Thread nD τ).loc main_arg1))
abbrev dstIds := val_main_v3 (F := Ideal) (m ((c : Thread nD τ).loc main_arg1))
abbrev invDeg := val_main_v13 (F := Ideal) (m ((c : Thread nD τ).loc main_arg1))

/-! ## Before the first grid -/

theorem W2_src : W2 m ρ c (Proc.devRef .tc main_v1) = srcIds m c :=
  (keep0a _ main_v1 (by decide)).trans (Stretch.src (W0 m ρ c))
theorem W2_dst : W2 m ρ c (Proc.devRef .tc main_v3) = dstIds m c :=
  (keep0a _ main_v3 (by decide)).trans (Stretch.dst (W0 m ρ c))
theorem W2_arg (r : Ref sig .tc) (h0 : r ∉ written0) (h0a : r ∉ written0a) :
    W2 m ρ c (Proc.devRef .tc r) = m ((c : Thread nD τ).loc r) :=
  (keep0a _ r h0a).trans ((keep0 _ r h0).trans rfl)
theorem W2_inv : W2 m ρ c (Proc.devRef .tc main_v12) = val_main_v12 (F := Ideal) (m ((c : Thread nD τ).loc main_arg1)) :=
  Stretch.inv (W1 m ρ c) (m ((c : Thread nD τ).loc main_arg1)) (Stretch.degPos (W0 m ρ c)) (Stretch.degInv (W0 m ρ c)) (Stretch.zero (W0 m ρ c))

theorem W3_src : W3 m ρ c (Proc.devRef .tc main_v1) = srcIds m c := (keep0b _ main_v1 (by decide)).trans (W2_src m ρ c)
theorem W3_dst : W3 m ρ c (Proc.devRef .tc main_v3) = dstIds m c := (keep0b _ main_v3 (by decide)).trans (W2_dst m ρ c)
theorem W3_inv : W3 m ρ c (Proc.devRef .tc main_v13) = invDeg m c := Stretch.invCol (W2 m ρ c) (m ((c : Thread nD τ).loc main_arg1)) (W2_inv m ρ c)
theorem W3_means : W3 m ρ c (Proc.devRef .tc main_v25) = mean64 (srcIds m c) (dstIds m c) (invDeg m c) (m ((c : Thread nD τ).loc main_arg0)) := by
  refine (Stretch.means0 (W2 m ρ c) (m ((c : Thread nD τ).loc main_arg1)) (W2_inv m ρ c)).trans ?_
  rw [W2_src, W2_dst, W2_arg m ρ c main_arg0 (by decide) (by decide)]
theorem W3_x : W3 m ρ c (Proc.devRef .tc main_arg0) = (m ((c : Thread nD τ).loc main_arg0)) :=
  W3_launch m ρ c main_arg0 (by decide) (by decide) (by decide)
theorem W3_wl : W3 m ρ c (Proc.devRef .tc main_v27) = val_main_v26 (F := Ideal) (m ((c : Thread nD τ).loc main_arg2)) := by
  refine (Stretch.wl0 (W2 m ρ c)).trans ?_
  rw [W2_arg m ρ c main_arg2 (by decide) (by decide)]
theorem W3_wr : W3 m ρ c (Proc.devRef .tc main_v29) = val_main_v31 (F := Ideal) (m ((c : Thread nD τ).loc main_arg4)) := by
  refine (Stretch.wr0 (W2 m ρ c)).trans ?_
  rw [W2_arg m ρ c main_arg4 (by decide) (by decide)]
theorem W3_bias : W3 m ρ c (Proc.devRef .tc main_v30) = val_main_v28 (F := Ideal) (m ((c : Thread nD τ).loc main_arg3)) := by
  refine (Stretch.bias0 (W2 m ρ c)).trans ?_
  rw [W2_arg m ρ c main_arg3 (by decide) (by decide)]

/-! ## The first layer -/

/-- The first layer's output, as a function of the launch memory. -/
def hidden1 : Arr 100000 128 :=
  stepRelu (mean64 (srcIds m c) (dstIds m c) (invDeg m c)) (m ((c : Thread nD τ).loc main_arg0)) (val_main_v26 (F := Ideal) (m ((c : Thread nD τ).loc main_arg2)))
    (val_main_v31 (F := Ideal) (m ((c : Thread nD τ).loc main_arg4))) (val_main_v28 (F := Ideal) (m ((c : Thread nD τ).loc main_arg3)))

/-- After the first grid its output array holds the layer of what the grid was entered with. -/
theorem out1 : W4 m ρ c (Proc.devRef .tc main_v31) = hidden1 m c := by
  refine (W4_arr m ρ c 5).trans ?_
  rw [Layer0.layer (V3 m ρ) c]
  show linRelu (W3 m ρ c (Proc.devRef .tc main_v25)) (W3 m ρ c (Proc.devRef .tc main_arg0)) (W3 m ρ c (Proc.devRef .tc main_v27))
      (W3 m ρ c (Proc.devRef .tc main_v29)) (W3 m ρ c (Proc.devRef .tc main_v30)) = _
  rw [W3_means, W3_x, W3_wl, W3_wr, W3_bias]
  rfl

/-! ## The second layer -/

theorem W4_src : W4 m ρ c (Proc.devRef .tc main_v1) = srcIds m c := (W4_keep m ρ c main_v1 (by decide)).trans (W3_src m ρ c)
theorem W4_dst : W4 m ρ c (Proc.devRef .tc main_v3) = dstIds m c := (W4_keep m ρ c main_v3 (by decide)).trans (W3_dst m ρ c)
theorem W4_inv : W4 m ρ c (Proc.devRef .tc main_v13) = invDeg m c := (W4_keep m ρ c main_v13 (by decide)).trans (W3_inv m ρ c)
/-- An argument is, at this layer's entry, as launched. -/
theorem W4_arg (r : Ref sig .tc) (h0 : r ∉ written0) (h0a : r ∉ written0a) (h0b : r ∉ written0b)
    (hk : W4 m ρ c (Proc.devRef .tc r) = W3 m ρ c (Proc.devRef .tc r)) : W4 m ρ c (Proc.devRef .tc r) = m ((c : Thread nD τ).loc r) :=
  hk.trans (W3_launch m ρ c r h0 h0a h0b)

theorem W5_means : W5 m ρ c (Proc.devRef .tc main_v43) = mean128 (srcIds m c) (dstIds m c) (invDeg m c) (hidden1 m c) := by
  refine (Stretch.means1 (W4 m ρ c)).trans ?_
  rw [W4_src, W4_dst, W4_inv, out1]
theorem W5_x : W5 m ρ c (Proc.devRef .tc main_v31) = hidden1 m c :=
  (keep1 _ main_v31 (by decide)).trans (out1 m ρ c)
theorem W5_wl : W5 m ρ c (Proc.devRef .tc main_v45) = val_main_v47 (F := Ideal) (m ((c : Thread nD τ).loc main_arg5)) := by
  refine (Stretch.wl1 (W4 m ρ c)).trans ?_
  rw [W4_arg m ρ c main_arg5 (by decide) (by decide) (by decide) (W4_keep m ρ c main_arg5 (by decide))]
theorem W5_wr : W5 m ρ c (Proc.devRef .tc main_v47) = val_main_v52 (F := Ideal) (m ((c : Thread nD τ).loc main_arg7)) := by
  refine (Stretch.wr1 (W4 m ρ c)).trans ?_
  rw [W4_arg m ρ c main_arg7 (by decide) (by decide) (by decide) (W4_keep m ρ c main_arg7 (by decide))]
theorem W5_bias : W5 m ρ c (Proc.devRef .tc main_v48) = val_main_v49 (F := Ideal) (m ((c : Thread nD τ).loc main_arg6)) := by
  refine (Stretch.bias1 (W4 m ρ c)).trans ?_
  rw [W4_arg m ρ c main_arg6 (by decide) (by decide) (by decide) (W4_keep m ρ c main_arg6 (by decide))]

/-- The second layer's output, as a function of the launch memory. -/
def hidden2 : Arr 100000 128 :=
  stepRelu (mean128 (srcIds m c) (dstIds m c) (invDeg m c)) (hidden1 m c) (val_main_v47 (F := Ideal) (m ((c : Thread nD τ).loc main_arg5))) (val_main_v52 (F := Ideal) (m ((c : Thread nD τ).loc main_arg7))) (val_main_v49 (F := Ideal) (m ((c : Thread nD τ).loc main_arg6)))

/-- After the layer's grid its output array holds the layer of what the grid was entered with. -/
theorem out2 : W6 m ρ c (Proc.devRef .tc main_v49) = hidden2 m c := by
  refine (W6_arr m ρ c 5).trans ?_
  rw [Layer1.layer (V5 m ρ) c]
  show linRelu (W5 m ρ c (Proc.devRef .tc main_v43)) (W5 m ρ c (Proc.devRef .tc main_v31)) (W5 m ρ c (Proc.devRef .tc main_v45))
      (W5 m ρ c (Proc.devRef .tc main_v47)) (W5 m ρ c (Proc.devRef .tc main_v48)) = _
  rw [W5_means, W5_x, W5_wl, W5_wr, W5_bias]
  rfl

/-! ## The third layer -/

theorem W6_src : W6 m ρ c (Proc.devRef .tc main_v1) = srcIds m c := (W6_keep m ρ c main_v1 (by decide) (by decide) (by decide)).trans (W3_src m ρ c)
theorem W6_dst : W6 m ρ c (Proc.devRef .tc main_v3) = dstIds m c := (W6_keep m ρ c main_v3 (by decide) (by decide) (by decide)).trans (W3_dst m ρ c)
theorem W6_inv : W6 m ρ c (Proc.devRef .tc main_v13) = invDeg m c := (W6_keep m ρ c main_v13 (by decide) (by decide) (by decide)).trans (W3_inv m ρ c)
/-- An argument is, at this layer's entry, as launched. -/
theorem W6_arg (r : Ref sig .tc) (h0 : r ∉ written0) (h0a : r ∉ written0a) (h0b : r ∉ written0b)
    (hk : W6 m ρ c (Proc.devRef .tc r) = W3 m ρ c (Proc.devRef .tc r)) : W6 m ρ c (Proc.devRef .tc r) = m ((c : Thread nD τ).loc r) :=
  hk.trans (W3_launch m ρ c r h0 h0a h0b)

theorem W7_means : W7 m ρ c (Proc.devRef .tc main_v61) = mean128 (srcIds m c) (dstIds m c) (invDeg m c) (hidden2 m c) := by
  refine (Stretch.means2 (W6 m ρ c)).trans ?_
  rw [W6_src, W6_dst, W6_inv, out2]
theorem W7_x : W7 m ρ c (Proc.devRef .tc main_v49) = hidden2 m c :=
  (keep2 _ main_v49 (by decide)).trans (out2 m ρ c)
theorem W7_wl : W7 m ρ c (Proc.devRef .tc main_v63) = val_main_v68 (F := Ideal) (m ((c : Thread nD τ).loc main_arg8)) := by
  refine (Stretch.wl2 (W6 m ρ c)).trans ?_
  rw [W6_arg m ρ c main_arg8 (by decide) (by decide) (by decide) (W6_keep m ρ c main_arg8 (by decide) (by decide) (by decide))]
theorem W7_wr : W7 m ρ c (Proc.devRef .tc main_v65) = val_main_v73 (F := Ideal) (m ((c : Thread nD τ).loc main_arg10)) := by
  refine (Stretch.wr2 (W6 m ρ c)).trans ?_
  rw [W6_arg m ρ c main_arg10 (by decide) (by decide) (by decide) (W6_keep m ρ c main_arg10 (by decide) (by decide) (by decide))]
theorem W7_bias : W7 m ρ c (Proc.devRef .tc main_v66) = val_main_v70 (F := Ideal) (m ((c : Thread nD τ).loc main_arg9)) := by
  refine (Stretch.bias2 (W6 m ρ c)).trans ?_
  rw [W6_arg m ρ c main_arg9 (by decide) (by decide) (by decide) (W6_keep m ρ c main_arg9 (by decide) (by decide) (by decide))]

/-- The third layer's output, as a function of the launch memory. -/
def hidden3 : Arr 100000 128 :=
  stepRelu (mean128 (srcIds m c) (dstIds m c) (invDeg m c)) (hidden2 m c) (val_main_v68 (F := Ideal) (m ((c : Thread nD τ).loc main_arg8))) (val_main_v73 (F := Ideal) (m ((c : Thread nD τ).loc main_arg10))) (val_main_v70 (F := Ideal) (m ((c : Thread nD τ).loc main_arg9)))

/-- After the layer's grid its output array holds the layer of what the grid was entered with. -/
theorem out3 : W8 m ρ c (Proc.devRef .tc main_v67) = hidden3 m c := by
  refine (W8_arr m ρ c 5).trans ?_
  rw [Layer2.layer (V7 m ρ) c]
  show linRelu (W7 m ρ c (Proc.devRef .tc main_v61)) (W7 m ρ c (Proc.devRef .tc main_v49)) (W7 m ρ c (Proc.devRef .tc main_v63))
      (W7 m ρ c (Proc.devRef .tc main_v65)) (W7 m ρ c (Proc.devRef .tc main_v66)) = _
  rw [W7_means, W7_x, W7_wl, W7_wr, W7_bias]
  rfl

/-! ## The fourth layer -/

theorem W8_src : W8 m ρ c (Proc.devRef .tc main_v1) = srcIds m c := (W8_keep m ρ c main_v1 (by decide) (by decide) (by decide) (by decide) (by decide)).trans (W3_src m ρ c)
theorem W8_dst : W8 m ρ c (Proc.devRef .tc main_v3) = dstIds m c := (W8_keep m ρ c main_v3 (by decide) (by decide) (by decide) (by decide) (by decide)).trans (W3_dst m ρ c)
theorem W8_inv : W8 m ρ c (Proc.devRef .tc main_v13) = invDeg m c := (W8_keep m ρ c main_v13 (by decide) (by decide) (by decide) (by decide) (by decide)).trans (W3_inv m ρ c)
/-- An argument is, at this layer's entry, as launched. -/
theorem W8_arg (r : Ref sig .tc) (h0 : r ∉ written0) (h0a : r ∉ written0a) (h0b : r ∉ written0b)
    (hk : W8 m ρ c (Proc.devRef .tc r) = W3 m ρ c (Proc.devRef .tc r)) : W8 m ρ c (Proc.devRef .tc r) = m ((c : Thread nD τ).loc r) :=
  hk.trans (W3_launch m ρ c r h0 h0a h0b)

theorem W9_means : W9 m ρ c (Proc.devRef .tc main_v79) = mean128 (srcIds m c) (dstIds m c) (invDeg m c) (hidden3 m c) := by
  refine (Stretch.means3 (W8 m ρ c)).trans ?_
  rw [W8_src, W8_dst, W8_inv, out3]
theorem W9_x : W9 m ρ c (Proc.devRef .tc main_v67) = hidden3 m c :=
  (keep3 _ main_v67 (by decide)).trans (out3 m ρ c)
theorem W9_wl : W9 m ρ c (Proc.devRef .tc main_v81) = val_main_v89 (F := Ideal) (m ((c : Thread nD τ).loc main_arg11)) := by
  refine (Stretch.wl3 (W8 m ρ c)).trans ?_
  rw [W8_arg m ρ c main_arg11 (by decide) (by decide) (by decide) (W8_keep m ρ c main_arg11 (by decide) (by decide) (by decide) (by decide) (by decide))]
theorem W9_wr : W9 m ρ c (Proc.devRef .tc main_v83) = val_main_v94 (F := Ideal) (m ((c : Thread nD τ).loc main_arg13)) := by
  refine (Stretch.wr3 (W8 m ρ c)).trans ?_
  rw [W8_arg m ρ c main_arg13 (by decide) (by decide) (by decide) (W8_keep m ρ c main_arg13 (by decide) (by decide) (by decide) (by decide) (by decide))]
theorem W9_bias : W9 m ρ c (Proc.devRef .tc main_v84) = val_main_v91 (F := Ideal) (m ((c : Thread nD τ).loc main_arg12)) := by
  refine (Stretch.bias3 (W8 m ρ c)).trans ?_
  rw [W8_arg m ρ c main_arg12 (by decide) (by decide) (by decide) (W8_keep m ρ c main_arg12 (by decide) (by decide) (by decide) (by decide) (by decide))]

/-- The result, as a function of the launch memory. -/
def value : Arr 100000 64 :=
  stepLin (mean128 (srcIds m c) (dstIds m c) (invDeg m c)) (hidden3 m c) (val_main_v89 (F := Ideal) (m ((c : Thread nD τ).loc main_arg11))) (val_main_v94 (F := Ideal) (m ((c : Thread nD τ).loc main_arg13))) (val_main_v91 (F := Ideal) (m ((c : Thread nD τ).loc main_arg12)))

/-- After the layer's grid its output array holds the layer of what the grid was entered with. -/
theorem out4 : W10 m ρ c (Proc.devRef .tc main_v85) = value m c := by
  refine (W10_arr m ρ c 5).trans ?_
  rw [Layer3.layer (V9 m ρ) c]
  show lin (W9 m ρ c (Proc.devRef .tc main_v79)) (W9 m ρ c (Proc.devRef .tc main_v67)) (W9 m ρ c (Proc.devRef .tc main_v81))
      (W9 m ρ c (Proc.devRef .tc main_v83)) (W9 m ρ c (Proc.devRef .tc main_v84)) = _
  rw [W9_means, W9_x, W9_wl, W9_wr, W9_bias]
  rfl

/-! ## The result -/

/-- The result is the network of the arguments: the four steps in sequence. -/
theorem value_eq : value m c
    = net (mean64 (srcIds m c) (dstIds m c) (invDeg m c)) (mean128 (srcIds m c) (dstIds m c) (invDeg m c)) (m ((c : Thread nD τ).loc main_arg0))
        (val_main_v26 (F := Ideal) (m ((c : Thread nD τ).loc main_arg2))) (val_main_v31 (F := Ideal) (m ((c : Thread nD τ).loc main_arg4))) (val_main_v28 (F := Ideal) (m ((c : Thread nD τ).loc main_arg3)))
        (val_main_v47 (F := Ideal) (m ((c : Thread nD τ).loc main_arg5))) (val_main_v52 (F := Ideal) (m ((c : Thread nD τ).loc main_arg7))) (val_main_v49 (F := Ideal) (m ((c : Thread nD τ).loc main_arg6)))
        (val_main_v68 (F := Ideal) (m ((c : Thread nD τ).loc main_arg8))) (val_main_v73 (F := Ideal) (m ((c : Thread nD τ).loc main_arg10))) (val_main_v70 (F := Ideal) (m ((c : Thread nD τ).loc main_arg9)))
        (val_main_v89 (F := Ideal) (m ((c : Thread nD τ).loc main_arg11))) (val_main_v94 (F := Ideal) (m ((c : Thread nD τ).loc main_arg13))) (val_main_v91 (F := Ideal) (m ((c : Thread nD τ).loc main_arg12))) := rfl

/-- Every weakly fair execution of the kernel program terminates, nothing faulting, with the result buffer at the
    network of the launch contents and the arguments unchanged. -/
theorem run : θ_run defs (onTc (τ := τ) (main (F := Ideal))) ⟨m, fun _ => 0, ρ⟩ (fun r => ∀ c : Dev nD,
      r.2.mem ((c.tc : Thread nD τ).loc main_v85) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (out4 m ρ c), (h c).2⟩) (Cert.KernelIdeal.Named.run m ρ)

end Cert.KernelIdeal.Net

end
-- ==== Proof.lean ====
/-
  Four stacked graph-convolution layers over 100000 nodes and 1600000 edges: the kernel program against the plain one.

  Both programs compute, layer by layer, from node features `h`,
      h ↦ mean(h) · W_lᵀ + b + h · W_rᵀ        (clipped below at zero in the first three layers),
  where `mean(h)` is each node's inverse in-degree times the sum of the feature rows of the nodes with an edge into
  it. The mean is computed by the same host operations in both programs (a gather of the source rows, a scatter-add at
  the destination rows, a product with the inverse in-degree column), so it enters only as one function of `h`
  (`Cert.Sage.mean64`, `mean128`). The programs differ in the rest of a layer: the reference takes the two products as
  whole `dot_general`s against the transposed weights and adds `(mean · W_lᵀ + b) + h · W_rᵀ`; the kernel program
  transposes the weights on the host, passes them through a narrower float format, and runs a grid of twenty blocks
  of 5000 rows, each adding `(mean · W_lᵀ + h · W_rᵀ) + b` for its rows. On exact extended reals the narrowing is the
  identity, a row block of a product is the product of the row block, the twenty blocks tile the rows, and addition is
  commutative and associative — so each layer is the same function of its input in both programs, whatever the entries
  (no entry needs to be finite), and so is the composition of the four (`Cert.Sage.net`).

  The modules: `SageNet` states the network; `LibPlainDot`, `LibLinLayer`, `LibBiasLast` are the layer's arithmetic at
  any extents; `Layer0Value … Layer3Value` read each grid as one array; `KernelRun`, `KernelFold`, `KernelStretch`,
  `KernelValue` walk the kernel program's run to its result; `RefValue` reads the reference's result; `RefRunP`,
  `RefReadP` are the reference's run and its stages.
-/
import proofs.«181820_j11081015623738_1_alg».proof.Defs
import proofs.«181820_j11081015623738_1_alg».proof.Proof.Gen.Kernel
import proofs.«181820_j11081015623738_1_alg».proof.Proof.Gen.Kernel.Frame
import proofs.«181820_j11081015623738_1_alg».proof.Proof.Gen.KernelIdeal
import proofs.«181820_j11081015623738_1_alg».proof.Proof.Gen.KernelIdeal.Frame
import proofs.«181820_j11081015623738_1_alg».proof.Proof.Gen.ReferenceIdeal
import proofs.«181820_j11081015623738_1_alg».proof.Proof.Gen.Pre_finite_inputs
import proofs.«181820_j11081015623738_1_alg».proof.Proof.RefRunP
import proofs.«181820_j11081015623738_1_alg».proof.Proof.RefReadP
import proofs.«181820_j11081015623738_1_alg».proof.Proof.RefValue
import proofs.«181820_j11081015623738_1_alg».proof.Proof.KernelValue

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its reading on exact values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel program was rewritten to read it on exact values. -/
theorem preserves : Cert.preserves_Kernel_KernelIdeal := trivial

/-- From memories that agree on the arguments both programs end with the network of the arguments in their result
    buffers: the kernel program's result by the walk through its ten segments, the reference's by its stages. -/
theorem algebraic : Cert.algebraic_KernelIdeal_ReferenceIdeal := by
  intro m ρ m' ρ' _ hagree
  refine ⟨fun c => Cert.KernelIdeal.Net.value m c, Cert.KernelIdeal.Net.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13⟩ := hagree c
  rw [Cert.ReferenceIdeal.ReadP.val_main_v96_eq, Cert.ReferenceIdeal.Net.result, a0, a1, a2, a3, a4, a5, a6, a7, a8, a9, a10, a11, a12, a13]
  exact (Cert.KernelIdeal.Net.value_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
